-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S256x128 : Shape := ⟨2, ![256, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S100000x1 : Shape := ⟨2, ![100000, 1]⟩
abbrev S50000x1 : Shape := ⟨2, ![50000, 1]⟩
abbrev S16384 : Shape := ⟨1, ![16384]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1 .f32) (main_arg12 : FVec F S100000x1 .f32) (main_arg13 : FVec F S50000x1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S100000x1 .f32 := Host.absf main_arg12
  let main_cst_22 : FVec F S_ .f32 := constant S_ .f32 0x7F800000#32
  let main_v60 : FVec F S100000x1 .f32 := broadcastInDim S100000x1 ![] bcast_S_S100000x1 main_cst_22
  let main_v61 : IVec S100000x1 1 := cmpf .olt main_v59 main_v60
  let main_c_23 : IVec S_ 1 := constantI S_ 1 1#1
  let main_v62 : IVec S_ 1 := (fun x v => Host.reduce IntOp.andi x v reducesTo_S100000x1_S_d0_1 h_S_) main_v61 main_c_23
  let main_v63 : IVec S_ 1 := andi main_v58 main_v62
  let main_v64 : FVec F S50000x1 .f32 := Host.absf main_arg13
  let main_cst_24 : FVec F S_ .f32 := constant S_ .f32 0x7F800000#32
  let main_v65 : FVec F S50000x1 .f32 := broadcastInDim S50000x1 ![] bcast_S_S50000x1 main_cst_24
  let main_v66 : IVec S50000x1 1 := cmpf .olt main_v64 main_v65
  let main_c_25 : IVec S_ 1 := constantI S_ 1 1#1
  let main_v67 : IVec S_ 1 := (fun x v => Host.reduce IntOp.andi x v reducesTo_S50000x1_S_d0_1 h_S_) main_v66 main_c_25
  fn_part4 (F := F) main_v63 main_v67

def fn_part2 {F : FTy → Type} [FloatOps F] (main_arg7 : FVec F S128 .f32) (main_arg8 : FVec F S128x64 .f32) (main_arg9 : FVec F S64 .f32) (main_arg10 : FVec F S64x1 .f32) (main_arg11 : FVec F S1 .f32) (main_arg12 : FVec F S100000x1 .f32) (main_arg13 : FVec F S50000x1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_arg12 main_arg13 main_v48 main_v49 main_v50

def fn_part1 {F : FTy → Type} [FloatOps F] (main_arg4 : FVec F S64x64 .f32) (main_arg5 : FVec F S64 .f32) (main_arg6 : FVec F S256x128 .f32) (main_arg7 : FVec F S128 .f32) (main_arg8 : FVec F S128x64 .f32) (main_arg9 : FVec F S64 .f32) (main_arg10 : FVec F S64x1 .f32) (main_arg11 : FVec F S1 .f32) (main_arg12 : FVec F S100000x1 .f32) (main_arg13 : FVec F S50000x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x64 .f32) (main_arg1 : FVec F S50000x64 .f32) (main_arg2 : FVec F S64x64 .f32) (main_arg3 : FVec F S64 .f32) (main_arg4 : FVec F S64x64 .f32) (main_arg5 : FVec F S64 .f32) (main_arg6 : FVec F S256x128 .f32) (main_arg7 : FVec F S128 .f32) (main_arg8 : FVec F S128x64 .f32) (main_arg9 : FVec F S64 .f32) (main_arg10 : FVec F S64x1 .f32) (main_arg11 : FVec F S1 .f32) (main_arg12 : FVec F S100000x1 .f32) (main_arg13 : FVec F S50000x1 .f32) (main_arg14 : IVec S16384 32) (main_arg15 : IVec S16384 32) (main_arg16 : IVec S2000000 32) (main_arg17 : IVec S2000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S256x128 : Shape := ⟨2, ![256, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S100000x1 : Shape := ⟨2, ![100000, 1]⟩
abbrev S50000x1 : Shape := ⟨2, ![50000, 1]⟩
abbrev S16384 : Shape := ⟨1, ![16384]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S50000 : Shape := ⟨1, ![50000]⟩
abbrev S16384x1 : Shape := ⟨2, ![16384, 1]⟩
abbrev S16384x64 : Shape := ⟨2, ![16384, 64]⟩
abbrev S16384x2 : Shape := ⟨2, ![16384, 2]⟩
abbrev S16384x3 : Shape := ⟨2, ![16384, 3]⟩
abbrev S1x64 : Shape := ⟨2, ![1, 64]⟩
abbrev S64x128 : Shape := ⟨2, ![64, 128]⟩
abbrev S1x128 : Shape := ⟨2, ![1, 128]⟩
abbrev S1x1 : Shape := ⟨2, ![1, 1]⟩
abbrev S2048x64 : Shape := ⟨2, ![2048, 64]⟩
abbrev S2048x3 : Shape := ⟨2, ![2048, 3]⟩
abbrev S2048x1 : Shape := ⟨2, ![2048, 1]⟩
abbrev S2048x128 : Shape := ⟨2, ![2048, 128]⟩

abbrev nBuf : Space → Nat
  | .hbm => 158
  | .vmem => 25
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64, .f32⟩
  | 4 => ⟨S64x64, .f32⟩
  | 5 => ⟨S64, .f32⟩
  | 6 => ⟨S256x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S100000x1, .f32⟩
  | 13 => ⟨S50000x1, .f32⟩
  | 14 => ⟨S16384, .i32⟩
  | 15 => ⟨S16384, .i32⟩
  | 16 => ⟨S2000000, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x64, .f32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x64, .f32⟩
  | 36 => ⟨S_, .f32⟩
  | 37 => ⟨S2000000, .f32⟩
  | 38 => ⟨S_, .f32⟩
  | 39 => ⟨S100000x64, .f32⟩
  | 40 => ⟨S2000000x1, .i32⟩
  | 41 => ⟨S100000x64, .f32⟩
  | 42 => ⟨S_, .f32⟩
  | 43 => ⟨S50000x64, .f32⟩
  | 44 => ⟨S2000000x1, .i32⟩
  | 45 => ⟨S50000x64, .f32⟩
  | 46 => ⟨S_, .f32⟩
  | 47 => ⟨S100000, .f32⟩
  | 48 => ⟨S2000000x1, .i32⟩
  | 49 => ⟨S100000, .f32⟩
  | 50 => ⟨S_, .f32⟩
  | 51 => ⟨S100000, .f32⟩
  | 52 => ⟨S100000, .f32⟩
  | 53 => ⟨S_, .f32⟩
  | 54 => ⟨S50000, .f32⟩
  | 55 => ⟨S2000000x1, .i32⟩
  | 56 => ⟨S50000, .f32⟩
  | 57 => ⟨S_, .f32⟩
  | 58 => ⟨S50000, .f32⟩
  | 59 => ⟨S50000, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S16384x64, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S16384x64, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x64, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x64, .f32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384, .f32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S16384x1, .i32⟩
  | 113 => ⟨S16384, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S_, .i32⟩
  | 122 => ⟨S16384, .i32⟩
  | 123 => ⟨S16384, .i32⟩
  | 124 => ⟨S16384x1, .i32⟩
  | 125 => ⟨S16384x1, .i32⟩
  | 126 => ⟨S16384x2, .i32⟩
  | 127 => ⟨S16384, .f32⟩
  | _ => ⟨S100000x64, .f32⟩

abbrev hbmTy0_1 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S_, .i32⟩
  | 8 => ⟨S16384, .i32⟩
  | 9 => ⟨S16384, .i32⟩
  | 10 => ⟨S16384x1, .i32⟩
  | 11 => ⟨S16384x1, .i32⟩
  | 12 => ⟨S16384x2, .i32⟩
  | 13 => ⟨S16384, .f32⟩
  | 14 => ⟨S16384, .f32⟩
  | 15 => ⟨S16384x1, .f32⟩
  | 16 => ⟨S16384x1, .f32⟩
  | 17 => ⟨S16384x1, .f32⟩
  | 18 => ⟨S16384x3, .f32⟩
  | 19 => ⟨S1x64, .f32⟩
  | 20 => ⟨S1x64, .f32⟩
  | 21 => ⟨S64x128, .f32⟩
  | 22 => ⟨S64x128, .f32⟩
  | 23 => ⟨S64x128, .f32⟩
  | 24 => ⟨S64x128, .f32⟩
  | 25 => ⟨S1x128, .f32⟩
  | 26 => ⟨S1x64, .f32⟩
  | 27 => ⟨S1x1, .f32⟩
  | 28 => ⟨S16384x1, .f32⟩
  | 29 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x3, .f32⟩
  | .local _ .vmem, ⟨9, _⟩ => ⟨S2048x3, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S1x128, .f32⟩
  | .local _ .vmem, ⟨19, _⟩ => ⟨S128x64, .f32⟩
  | .local _ .vmem, ⟨20, _⟩ => ⟨S1x64, .f32⟩
  | .local _ .vmem, ⟨21, _⟩ => ⟨S64x1, .f32⟩
  | .local _ .vmem, ⟨22, _⟩ => ⟨S1x1, .f32⟩
  | .local _ .vmem, ⟨23, _⟩ => ⟨S2048x1, .f32⟩
  | .local _ .vmem, ⟨24, _⟩ => ⟨S2048x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_8 : Ref sig .tc := ⟨.hbm, 57, rfl⟩
abbrev main_v29 : Ref sig .tc := ⟨.hbm, 58, rfl⟩
abbrev main_v30 : Ref sig .tc := ⟨.hbm, 59, rfl⟩
abbrev main_c_9 : Ref sig .tc := ⟨.hbm, 60, rfl⟩
abbrev main_v31 : Ref sig .tc := ⟨.hbm, 61, rfl⟩
abbrev main_v32 : Ref sig .tc := ⟨.hbm, 62, rfl⟩
abbrev main_c_10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_c_12 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_c_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_15 : Ref sig .tc := ⟨.hbm, 87, rfl⟩
abbrev main_v52 : Ref sig .tc := ⟨.hbm, 88, rfl⟩
abbrev main_v53 : Ref sig .tc := ⟨.hbm, 89, rfl⟩
abbrev main_c_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_17 : Ref sig .tc := ⟨.hbm, 96, rfl⟩
abbrev main_v59 : Ref sig .tc := ⟨.hbm, 97, rfl⟩
abbrev main_v60 : Ref sig .tc := ⟨.hbm, 98, rfl⟩
abbrev main_c_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_19 : Ref sig .tc := ⟨.hbm, 105, rfl⟩
abbrev main_v66 : Ref sig .tc := ⟨.hbm, 106, rfl⟩
abbrev main_v67 : Ref sig .tc := ⟨.hbm, 107, rfl⟩
abbrev main_c_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_21 : Ref sig .tc := ⟨.hbm, 114, rfl⟩
abbrev main_v73 : Ref sig .tc := ⟨.hbm, 115, rfl⟩
abbrev main_v74 : Ref sig .tc := ⟨.hbm, 116, rfl⟩
abbrev main_c_22 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_23 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_24 : Ref sig .tc := ⟨.hbm, 128, rfl⟩
abbrev main_v84 : Ref sig .tc := ⟨.hbm, 129, rfl⟩
abbrev main_v85 : Ref sig .tc := ⟨.hbm, 130, rfl⟩
abbrev main_c_25 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_26 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S50000x64 : S_.BroadcastsInDim S50000x64 (![] : Fin 0 → Fin S50000x64.rank)
  bcast_S_S100000 : S_.BroadcastsInDim S100000 (![] : Fin 0 → Fin S100000.rank)
  bcast_S_S50000 : S_.BroadcastsInDim S50000 (![] : Fin 0 → Fin S50000.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  concatenates_S16384x1_S16384x1_S16384x1_S16384x3_d1 : Shape.Concatenates [S16384x1, S16384x1, S16384x1] S16384x3 1
  shapeCasts_S64_S1x64 : S64.ShapeCasts S1x64
  slices_S256x128_S64x128_0_0 : S256x128.Slices ![0, 0] S64x128
  slices_S256x128_S64x128_64_0 : S256x128.Slices ![64, 0] S64x128
  slices_S256x128_S64x128_128_0 : S256x128.Slices ![128, 0] S64x128
  slices_S256x128_S64x128_192_0 : S256x128.Slices ![192, 0] S64x128
  shapeCasts_S128_S1x128 : S128.ShapeCasts S1x128
  shapeCasts_S1_S1x1 : S1.ShapeCasts S1x1
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S50000x64_S2000000x1_S2000000x64_1_0_n_n_0_1_164_wf : GatherDims.WF S50000x64 S2000000x1 S2000000x64 [1] [0] [] [0] [] 1 ![1, 64]
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S50000x64_S2000000x1_S2000000x64_1_0_0_1_wf : ScatterDims.WF S50000x64 S2000000x1 S2000000x64 [1] [0] [0] 1
  scatter_S100000_S2000000x1_S2000000_n_0_0_1_wf : ScatterDims.WF S100000 S2000000x1 S2000000 [] [0] [0] 1
  scatter_S50000_S2000000x1_S2000000_n_0_0_1_wf : ScatterDims.WF S50000 S2000000x1 S2000000 [] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S100000_S16384x1_S16384_n_0_n_n_0_1_1_wf : GatherDims.WF S100000 S16384x1 S16384 [] [0] [] [0] [] 1 ![1]
  gather_S50000_S16384x1_S16384_n_0_n_n_0_1_1_wf : GatherDims.WF S50000 S16384x1 S16384 [] [0] [] [0] [] 1 ![1]
  gather_S100000x1_S16384x2_S16384_n_01_n_n_01_1_11_wf : GatherDims.WF S100000x1 S16384x2 S16384 [] [0, 1] [] [0, 1] [] 1 ![1, 1]
  gather_S50000x1_S16384x2_S16384_n_01_n_n_01_1_11_wf : GatherDims.WF S50000x1 S16384x2 S16384 [] [0, 1] [] [0, 1] [] 1 ![1, 1]
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x3.size a ≤ S16384x3.size a
  hwx0_4 : ∀ i : grid0.Coords, EltTy.bits .f32 = 32 ∨ (Rect.block (s := S16384x3) S2048x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .f32 = 32 ∨ (Rect.block (s := S64x128) S64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x128.size a ≤ S64x128.size a
  hwx0_12 : ∀ i : grid0.Coords, EltTy.bits .f32 = 32 ∨ (Rect.block (s := S64x128) S64x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x64.size a ≤ S128x64.size a
  hwx0_14 : ∀ i : grid0.Coords, EltTy.bits .f32 = 32 ∨ (Rect.block (s := S128x64) S128x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x1.size a ≤ S64x1.size a
  hwx0_16 : ∀ i : grid0.Coords, EltTy.bits .f32 = 32 ∨ (Rect.block (s := S64x1) S64x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x1.size a ≤ S16384x1.size a
  hwx0_18 : ∀ i : grid0.Coords, EltTy.bits .f32 = 32 ∨ (Rect.block (s := S16384x1) S2048x1.size (cc0_transform_18 i) (hinb0_18 i)).WholeWords (EltTy.packing .f32)

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf
def gather_S100000x1_S16384x2_S16384_n_01_n_n_01_1_11 : GatherDims S100000x1 S16384x2 S16384 where
  offsetDims := []
  collapsedSliceDims := [0, 1]
  operandBatchingDims := []
  startIndicesBatchingDims := []
  startIndexMap := [0, 1]
  indexVectorDim := 1
  sliceSizes := ![1, 1]
  wf := gather_S100000x1_S16384x2_S16384_n_01_n_n_01_1_11_wf
def gather_S50000x1_S16384x2_S16384_n_01_n_n_01_1_11 : GatherDims S50000x1 S16384x2 S16384 where
  offsetDims := []
  collapsedSliceDims := [0, 1]
  operandBatchingDims := []
  startIndicesBatchingDims := []
  startIndexMap := [0, 1]
  indexVectorDim := 1
  sliceSizes := ![1, 1]
  wf := gather_S50000x1_S16384x2_S16384_n_01_n_n_01_1_11_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v37) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v99) S2048x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v100) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v101) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v102) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v103) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v104) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v105) S64x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v106) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg8) S128x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v107) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg10) S64x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v108) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v109) S2048x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S256x128 : Shape := ⟨2, ![256, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S100000x1 : Shape := ⟨2, ![100000, 1]⟩
abbrev S50000x1 : Shape := ⟨2, ![50000, 1]⟩
abbrev S16384 : Shape := ⟨1, ![16384]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S16384x1 : Shape := ⟨2, ![16384, 1]⟩
abbrev S16384x64 : Shape := ⟨2, ![16384, 64]⟩
abbrev S100000 : Shape := ⟨1, ![100000]⟩
abbrev S50000 : Shape := ⟨1, ![50000]⟩
abbrev S1x64 : Shape := ⟨2, ![1, 64]⟩
abbrev S16384x256 : Shape := ⟨2, ![16384, 256]⟩
abbrev S16384x128 : Shape := ⟨2, ![16384, 128]⟩
abbrev S1x128 : Shape := ⟨2, ![1, 128]⟩
abbrev S1x1 : Shape := ⟨2, ![1, 1]⟩
abbrev S16384x2 : Shape := ⟨2, ![16384, 2]⟩

abbrev nBuf : Space → Nat
  | .hbm => 184
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64, .f32⟩
  | 4 => ⟨S64x64, .f32⟩
  | 5 => ⟨S64, .f32⟩
  | 6 => ⟨S256x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S100000x1, .f32⟩
  | 13 => ⟨S50000x1, .f32⟩
  | 14 => ⟨S16384, .i32⟩
  | 15 => ⟨S16384, .i32⟩
  | 16 => ⟨S2000000, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x64, .f32⟩
  | 27 => ⟨S_, .f32⟩
  | 28 => ⟨S100000x64, .f32⟩
  | 29 => ⟨S2000000x1, .i32⟩
  | 30 => ⟨S100000x64, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x64, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x64, .f32⟩
  | 49 => ⟨S_, .f32⟩
  | 50 => ⟨S50000x64, .f32⟩
  | 51 => ⟨S2000000x1, .i32⟩
  | 52 => ⟨S50000x64, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S16384x64, .f32⟩
  | 62 => ⟨S_, .f32⟩
  | 63 => ⟨S2000000, .f32⟩
  | 64 => ⟨S_, .f32⟩
  | 65 => ⟨S100000, .f32⟩
  | 66 => ⟨S2000000x1, .i32⟩
  | 67 => ⟨S100000, .f32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S16384, .f32⟩
  | 77 => ⟨S_, .f32⟩
  | 78 => ⟨S16384, .f32⟩
  | 79 => ⟨S16384, .f32⟩
  | 80 => ⟨S_, .f32⟩
  | 81 => ⟨S50000, .f32⟩
  | 82 => ⟨S2000000x1, .i32⟩
  | 83 => ⟨S50000, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384, .f32⟩
  | 93 => ⟨S_, .f32⟩
  | 94 => ⟨S16384, .f32⟩
  | 95 => ⟨S16384, .f32⟩
  | 96 => ⟨S16384x1, .f32⟩
  | 97 => ⟨S16384x64, .f32⟩
  | 98 => ⟨S16384x64, .f32⟩
  | 99 => ⟨S16384x1, .f32⟩
  | 100 => ⟨S16384x64, .f32⟩
  | 101 => ⟨S16384x64, .f32⟩
  | 102 => ⟨S16384x64, .f32⟩
  | 103 => ⟨S1x64, .f32⟩
  | 104 => ⟨S16384x64, .f32⟩
  | 105 => ⟨S16384x64, .f32⟩
  | 106 => ⟨S_, .f32⟩
  | 107 => ⟨S16384x64, .f32⟩
  | 108 => ⟨S16384x64, .f32⟩
  | 109 => ⟨S16384x64, .f32⟩
  | 110 => ⟨S1x64, .f32⟩
  | 111 => ⟨S16384x64, .f32⟩
  | 112 => ⟨S16384x64, .f32⟩
  | 113 => ⟨S_, .f32⟩
  | 114 => ⟨S16384x64, .f32⟩
  | 115 => ⟨S16384x64, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S16384x64, .f32⟩
  | 125 => ⟨S_, .i32⟩
  | 126 => ⟨S16384, .i32⟩
  | 127 => ⟨S16384, .i1⟩
  | _ => ⟨S100000x64, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384x64, .f32⟩
  | 6 => ⟨S16384x64, .f32⟩
  | 7 => ⟨S16384x64, .f32⟩
  | 8 => ⟨S16384x64, .f32⟩
  | 9 => ⟨S16384x64, .f32⟩
  | 10 => ⟨S16384x256, .f32⟩
  | 11 => ⟨S16384x128, .f32⟩
  | 12 => ⟨S1x128, .f32⟩
  | 13 => ⟨S16384x128, .f32⟩
  | 14 => ⟨S16384x128, .f32⟩
  | 15 => ⟨S16384x128, .f32⟩
  | 16 => ⟨S16384x64, .f32⟩
  | 17 => ⟨S1x64, .f32⟩
  | 18 => ⟨S16384x64, .f32⟩
  | 19 => ⟨S16384x64, .f32⟩
  | 20 => ⟨S16384x64, .f32⟩
  | 21 => ⟨S16384x1, .f32⟩
  | 22 => ⟨S1x1, .f32⟩
  | 23 => ⟨S16384x1, .f32⟩
  | 24 => ⟨S16384x1, .f32⟩
  | 25 => ⟨S16384, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i32⟩
  | 36 => ⟨S16384x1, .i32⟩
  | 37 => ⟨S16384x1, .i32⟩
  | 38 => ⟨S16384x2, .i32⟩
  | 39 => ⟨S16384, .f32⟩
  | 40 => ⟨S16384, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S_, .i32⟩
  | 49 => ⟨S16384, .i32⟩
  | 50 => ⟨S16384, .i32⟩
  | 51 => ⟨S16384x1, .i32⟩
  | 52 => ⟨S16384x1, .i32⟩
  | 53 => ⟨S16384x2, .i32⟩
  | 54 => ⟨S16384, .f32⟩
  | 55 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_c_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_14 : Ref sig .tc := ⟨.hbm, 84, rfl⟩
abbrev main_v50 : Ref sig .tc := ⟨.hbm, 85, rfl⟩
abbrev main_v51 : Ref sig .tc := ⟨.hbm, 86, rfl⟩
abbrev main_c_15 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call0_cst : Ref sig .tc := ⟨.hbm, 106, rfl⟩
abbrev main_call0_v0 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call1_cst : Ref sig .tc := ⟨.hbm, 113, rfl⟩
abbrev main_call1_v0 : Ref sig .tc := ⟨.hbm, 114, rfl⟩
abbrev main_v74 : Ref sig .tc := ⟨.hbm, 115, rfl⟩
abbrev main_c_17 : Ref sig .tc := ⟨.hbm, 116, rfl⟩
abbrev main_v75 : Ref sig .tc := ⟨.hbm, 117, rfl⟩
abbrev main_v76 : Ref sig .tc := ⟨.hbm, 118, rfl⟩
abbrev main_c_18 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_19 : Ref sig .tc := ⟨.hbm, 125, rfl⟩
abbrev main_v82 : Ref sig .tc := ⟨.hbm, 126, rfl⟩
abbrev main_v83 : Ref sig .tc := ⟨.hbm, 127, rfl⟩
abbrev main_c_20 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_21 : Ref sig .tc := ⟨.hbm, 154, rfl⟩
abbrev main_v109 : Ref sig .tc := ⟨.hbm, 155, rfl⟩
abbrev main_v110 : Ref sig .tc := ⟨.hbm, 156, rfl⟩
abbrev main_c_22 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_c_23 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_24 : Ref sig .tc := ⟨.hbm, 169, rfl⟩
abbrev main_v121 : Ref sig .tc := ⟨.hbm, 170, rfl⟩
abbrev main_v122 : Ref sig .tc := ⟨.hbm, 171, rfl⟩
abbrev main_c_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_26 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S50000x64 : S_.BroadcastsInDim S50000x64 (![] : Fin 0 → Fin S50000x64.rank)
  bcast_S_S100000 : S_.BroadcastsInDim S100000 (![] : Fin 0 → Fin S100000.rank)
  bcast_S_S50000 : S_.BroadcastsInDim S50000 (![] : Fin 0 → Fin S50000.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  concatenates_S16384x64_S16384x64_S16384x64_S16384x64_S16384x256_d1 : Shape.Concatenates [S16384x64, S16384x64, S16384x64, S16384x64] S16384x256 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  concatenates_S16384x1_S16384x1_S16384x2_d1 : Shape.Concatenates [S16384x1, S16384x1] S16384x2 1
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S16384x1_S16384x64_1_0_n_n_0_1_164_wf : GatherDims.WF S100000x64 S16384x1 S16384x64 [1] [0] [] [0] [] 1 ![1, 64]
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S50000x64_S16384x1_S16384x64_1_0_n_n_0_1_164_wf : GatherDims.WF S50000x64 S16384x1 S16384x64 [1] [0] [] [0] [] 1 ![1, 64]
  scatter_S100000_S2000000x1_S2000000_n_0_0_1_wf : ScatterDims.WF S100000 S2000000x1 S2000000 [] [0] [0] 1
  gather_S100000_S16384x1_S16384_n_0_n_n_0_1_1_wf : GatherDims.WF S100000 S16384x1 S16384 [] [0] [] [0] [] 1 ![1]
  scatter_S50000_S2000000x1_S2000000_n_0_0_1_wf : ScatterDims.WF S50000 S2000000x1 S2000000 [] [0] [0] 1
  gather_S50000_S16384x1_S16384_n_0_n_n_0_1_1_wf : GatherDims.WF S50000 S16384x1 S16384 [] [0] [] [0] [] 1 ![1]
  dot_S16384x64_S64x64_S16384x64_1_0_0_1_n_n_wf : DotDims.WF S16384x64 S64x64 S16384x64 [1] [0] [0] [1] [] []
  dot_S16384x256_S256x128_S16384x128_1_0_0_1_n_n_wf : DotDims.WF S16384x256 S256x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []
  gather_S100000x1_S16384x2_S16384_n_01_n_n_01_1_11_wf : GatherDims.WF S100000x1 S16384x2 S16384 [] [0, 1] [] [0, 1] [] 1 ![1, 1]
  gather_S50000x1_S16384x2_S16384_n_01_n_n_01_1_11_wf : GatherDims.WF S50000x1 S16384x2 S16384 [] [0, 1] [] [0, 1] [] 1 ![1, 1]

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def gather_S100000x1_S16384x2_S16384_n_01_n_n_01_1_11 : GatherDims S100000x1 S16384x2 S16384 where
  offsetDims := []
  collapsedSliceDims := [0, 1]
  operandBatchingDims := []
  startIndicesBatchingDims := []
  startIndexMap := [0, 1]
  indexVectorDim := 1
  sliceSizes := ![1, 1]
  wf := gather_S100000x1_S16384x2_S16384_n_01_n_n_01_1_11_wf
def gather_S50000x1_S16384x2_S16384_n_01_n_n_01_1_11 : GatherDims S50000x1 S16384x2 S16384 where
  offsetDims := []
  collapsedSliceDims := [0, 1]
  operandBatchingDims := []
  startIndicesBatchingDims := []
  startIndexMap := [0, 1]
  indexVectorDim := 1
  sliceSizes := ![1, 1]
  wf := gather_S50000x1_S16384x2_S16384_n_01_n_n_01_1_11_wf

class Facts : Prop extends Facts₀ where

variable [Facts]
-- ==== Proof.FrameBits.lean ====
/-
  The frame of `Kernel`: the program runs to its end on every weakly fair execution, faults nowhere and leaves
  its eighteen argument arrays as it found them.  @main is a stretch of host operations (row gathers, segment sums,
  the packing of three per-row scalars into one [16384, 3] array, four row blocks cut out of the first dense
  layer's weight), ONE grid of eight points over the batch axis, and a closing reshape.  At a grid point the body
  loads the eighteen input blocks whole (five row blocks of 2048 rows, thirteen weight and bias arrays that every
  point shares), computes, and stores one [2048, 1] column that covers its output block; nothing is kept from one
  point to the next.  So the proof data are: each input's staging buffer holds its block of the array as the region
  found it, and the output's holds `colOut` of those blocks.  The statement holds at any float instance.
-/
import proofs.«180399_j50302656971285_2_alg».proof.Proof.Gen.Kernel.Launch
import proofs.«180399_j50302656971285_2_alg».proof.Proof.Gen.Kernel.Skeleton
import proofs.«180399_j50302656971285_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

/-- The buffers' contents on core `c` when the grid is entered: the host operations before it, applied to the
    launch contents. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, the grid, and the closing reshape as the grid's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only arrays of the grid and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result buffer, which is no array of the grid. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-! ## The argument arrays are written by no host operation -/

/-- No host operation before the grid writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the grid writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the grid writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- No host operation before the grid writes argument 4: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 5: the grid finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- No host operation before the grid writes argument 6: the grid finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- No host operation before the grid writes argument 7: the grid finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c
/-- No host operation before the grid writes argument 8: the grid finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 9: the grid finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c
/-- No host operation before the grid writes argument 10: the grid finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 11: the grid finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c
/-- No host operation before the grid writes argument 12: the grid finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c
/-- No host operation before the grid writes argument 13: the grid finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c
/-- No host operation before the grid writes argument 14: the grid finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c
/-- No host operation before the grid writes argument 15: the grid finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c
/-- No host operation before the grid writes argument 16: the grid finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg16 (by exact (by decide : ∀ w, Pipeline.arrRef spec0 w ≠ main_arg16))]
  exact V_main_arg16 m c
/-- No host operation before the grid writes argument 17: the grid finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg17 (by exact (by decide : ∀ w, Pipeline.arrRef spec0 w ≠ main_arg17))]
  exact V_main_arg17 m c

/-! ## The windows' blocks -/

/-- Window `w`'s block at grid point `t`: that rectangle of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the block
    index has not moved since it was fetched. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or the block
    index has not moved since it was fetched. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or the block
    index has not moved since it was fetched. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or the block
    index has not moved since it was fetched. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or the block
    index has not moved since it was fetched. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or the block
    index has not moved since it was fetched. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetches it or the block
    index has not moved since it was fetched. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetches it or the block
    index has not moved since it was fetched. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetches it or the block
    index has not moved since it was fetched. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the point fetches it or the block
    index has not moved since it was fetched. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether the point fetches it or the block
    index has not moved since it was fetched. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether the point fetches it or the block
    index has not moved since it was fetched. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether the point fetches it or the block
    index has not moved since it was fetched. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether the point fetches it or the block
    index has not moved since it was fetched. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether the point fetches it or the block
    index has not moved since it was fetched. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether the point fetches it or the block
    index has not moved since it was fetched. -/
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether the point fetches it or the block
    index has not moved since it was fetched. -/
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, whether the point fetches it or the block
    index has not moved since it was fetched. -/
theorem before_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the grid -/

/-- An argument that is itself an array of the grid (a weight staged as it is) ends at what the grid's run leaves
    of an input, its entry contents; every other argument bypasses the grid and is written by no later line. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 5).trans (((dats 0 c).arrAt_in 5 rfl _).trans ((hA c 5).trans (V_main_arg2 m c))),
      ((h c).2 main_arg3 (Pipeline.mem_restRefs_of main_arg3 (by decide) (by decide))).trans (W_main_arg3 m dats c),
      ((h c).1 7).trans (((dats 0 c).arrAt_in 7 rfl _).trans ((hA c 7).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).1 14).trans (((dats 0 c).arrAt_in 14 rfl _).trans ((hA c 14).trans (V_main_arg8 m c))),
      ((h c).2 main_arg9 (Pipeline.mem_restRefs_of main_arg9 (by decide) (by decide))).trans (W_main_arg9 m dats c),
      ((h c).1 16).trans (((dats 0 c).arrAt_in 16 rfl _).trans ((hA c 16).trans (V_main_arg10 m c))),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c),
      ((h c).2 main_arg15 (Pipeline.mem_restRefs_of main_arg15 (by decide) (by decide))).trans (W_main_arg15 m dats c),
      ((h c).2 main_arg16 (Pipeline.mem_restRefs_of main_arg16 (by decide) (by decide))).trans (W_main_arg16 m dats c),
      ((h c).2 main_arg17 (Pipeline.mem_restRefs_of main_arg17 (by decide) (by decide))).trans (W_main_arg17 m dats c)⟩

/-- The frame claim's post from a run of the grid. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => kept_of_post m dats hA r h c) h

/-! ## The body's accesses: every load and the store take a whole buffer -/

abbrev rS2048x64 : Rect S2048x64 := Rect.unit (s := S2048x64) ![0, 0] S2048x64.size inb_S2048x64_S2048x64_0_0
abbrev rS2048x3 : Rect S2048x3 := Rect.unit (s := S2048x3) ![0, 0] S2048x3.size inb_S2048x3_S2048x3_0_0
abbrev rS64x64 : Rect S64x64 := Rect.unit (s := S64x64) ![0, 0] S64x64.size inb_S64x64_S64x64_0_0
abbrev rS1x64 : Rect S1x64 := Rect.unit (s := S1x64) ![0, 0] S1x64.size inb_S1x64_S1x64_0_0
abbrev rS64x128 : Rect S64x128 := Rect.unit (s := S64x128) ![0, 0] S64x128.size inb_S64x128_S64x128_0_0
abbrev rS1x128 : Rect S1x128 := Rect.unit (s := S1x128) ![0, 0] S1x128.size inb_S1x128_S1x128_0_0
abbrev rS128x64 : Rect S128x64 := Rect.unit (s := S128x64) ![0, 0] S128x64.size inb_S128x64_S128x64_0_0
abbrev rS64x1 : Rect S64x1 := Rect.unit (s := S64x1) ![0, 0] S64x1.size inb_S64x1_S64x1_0_0
abbrev rS1x1 : Rect S1x1 := Rect.unit (s := S1x1) ![0, 0] S1x1.size inb_S1x1_S1x1_0_0
abbrev rS2048x1 : Rect S2048x1 := Rect.unit (s := S2048x1) ![0, 0] S2048x1.size inb_S2048x1_S2048x1_0_0

/-! ## What the body leaves in the output window's buffer -/

/-- The output column of a grid point, from the eighteen input blocks: the body's one store, whose value is the
    score of the block's 2048 rows (the two normalized neighbourhood sums through their linear layer and ReLU, the four
    elementwise products through the three dense layers, plus the rows' bias sum). -/
def colOut (x0 : Vec F S2048x64 .f32) (x1 : Vec F S2048x64 .f32) (x2 : Vec F S2048x64 .f32) (x3 : Vec F S2048x64 .f32) (x4 : Vec F S2048x3 .f32) (x5 : Vec F S64x64 .f32) (x6 : Vec F S1x64 .f32) (x7 : Vec F S64x64 .f32) (x8 : Vec F S1x64 .f32) (x9 : Vec F S64x128 .f32) (x10 : Vec F S64x128 .f32) (x11 : Vec F S64x128 .f32) (x12 : Vec F S64x128 .f32) (x13 : Vec F S1x128 .f32) (x14 : Vec F S128x64 .f32) (x15 : Vec F S1x64 .f32) (x16 : Vec F S64x1 .f32) (x17 : Vec F S1x1 .f32) : Vec F S2048x1 .f32 :=
  View.canon [⟨rS2048x1, k0_pay1 (k0_pay3 (View.ld x4 rS2048x3)) (k0_pay8 (k0_pay4 (View.ld x0 rS2048x64)) (k0_pay5 (View.ld x1 rS2048x64)) (k0_pay6 (View.ld x4 rS2048x3) (View.ld x3 rS2048x64) (View.ld x5 rS64x64) (View.ld x6 rS1x64)) (k0_pay7 (View.ld x4 rS2048x3) (View.ld x2 rS2048x64) (View.ld x7 rS64x64) (View.ld x8 rS1x64)) (View.ld x9 rS64x128) (View.ld x10 rS64x128) (View.ld x11 rS64x128) (View.ld x12 rS64x128) (View.ld x13 rS1x128) (View.ld x14 rS128x64) (View.ld x15 rS1x64)) (View.ld x16 rS64x1) (View.ld x17 rS1x1)⟩]

/-- The one store covers the buffer. -/
theorem cover_col (p0 : Vec F S2048x1 .f32) (y : S2048x1.Idx) :
    ∃ pc ∈ ([⟨rS2048x1, p0⟩] : List (View.Piece (Elt F) S2048x1 .f32)), y ∈ pc.1.set :=
  View.cover_of_tiled [⟨rS2048x1, p0⟩] S2048x1.size (by rfl) y

/-! ## The body's triple -/

set_option maxHeartbeats 4000000 in
/-- On whole staging buffers, the inputs' at contents `xW` and the output's at anything, the body runs to a state with
    the inputs' as they were and the output's at `colOut` of them: it only loads whole buffers, computes, and stores once. -/
theorem sound_kernel (c : Dev nD) (E : Set ℕ) (i : grid0.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x3 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S128x64 .f32) (harg15 : arg15.IsWhole) (arg16 : Memref sig .tc .vmem S1x64 .f32) (harg16 : arg16.IsWhole) (arg17 : Memref sig .tc .vmem S64x1 .f32) (harg17 : arg17.IsWhole) (arg18 : Memref sig .tc .vmem S1x1 .f32) (harg18 : arg18.IsWhole) (arg19 : Memref sig .tc .vmem S2048x1 .f32) (harg19 : arg19.IsWhole)
    (x0 : Vec F S2048x64 .f32) (x1 : Vec F S2048x64 .f32) (x2 : Vec F S2048x64 .f32) (x3 : Vec F S2048x64 .f32) (x4 : Vec F S2048x3 .f32) (x5 : Vec F S64x64 .f32) (x6 : Vec F S1x64 .f32) (x7 : Vec F S64x64 .f32) (x8 : Vec F S1x64 .f32) (x9 : Vec F S64x128 .f32) (x10 : Vec F S64x128 .f32) (x11 : Vec F S64x128 .f32) (x12 : Vec F S64x128 .f32) (x13 : Vec F S1x128 .f32) (x14 : Vec F S128x64 .f32) (x15 : Vec F S1x64 .f32) (x16 : Vec F S64x1 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (colOut x0 x1 x2 x3 x4 x5 x6 x7 x8 x9 x10 x11 x12 x13 x14 x15 x16 x17)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  try dsimp only
  exact View.read_writes_eq_canon _ _ _ (cover_col _)

/-! ## The proof data -/

/-- On core `c`: the arrays as the grid finds them; after the body at point `t` each input's buffer at its block and
    the output's at `colOut` of the input blocks; nothing of the kernel's own to keep, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => colOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = colOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d
theorem before_17 (c : Dev nD) (t : Fin cfg0.N) (d) : (dats m 0 c).before 17 t d = iblk m c 17 t :=
  before_17_of m (dats m 0 c) (A_eq m c 17) (after_17 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- At any point the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the grid ends at what the proof data say (an
    input at its entry contents, the output at the points' columns written back), and every other buffer as the closing
    reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Frame

end
-- ==== Proof.FrameIdeal.lean ====
/-
  The frame of `KernelIdeal`: the program runs to its end on every weakly fair execution, faults nowhere and leaves
  its eighteen argument arrays as it found them.  @main is a stretch of host operations (row gathers, segment sums,
  the packing of three per-row scalars into one [16384, 3] array, four row blocks cut out of the first dense
  layer's weight), ONE grid of eight points over the batch axis, and a closing reshape.  At a grid point the body
  loads the eighteen input blocks whole (five row blocks of 2048 rows, thirteen weight and bias arrays that every
  point shares), computes, and stores one [2048, 1] column that covers its output block; nothing is kept from one
  point to the next.  So the proof data are: each input's staging buffer holds its block of the array as the region
  found it, and the output's holds `colOut` of those blocks.  The statement holds at any float instance.
-/
import proofs.«180399_j50302656971285_2_alg».proof.Proof.Gen.KernelIdeal.Launch
import proofs.«180399_j50302656971285_2_alg».proof.Proof.Gen.KernelIdeal.Skeleton
import proofs.«180399_j50302656971285_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

/-- The buffers' contents on core `c` when the grid is entered: the host operations before it, applied to the
    launch contents. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, the grid, and the closing reshape as the grid's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only arrays of the grid and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result buffer, which is no array of the grid. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-! ## The argument arrays are written by no host operation -/

/-- No host operation before the grid writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the grid writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the grid writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- No host operation before the grid writes argument 4: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 5: the grid finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- No host operation before the grid writes argument 6: the grid finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- No host operation before the grid writes argument 7: the grid finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c
/-- No host operation before the grid writes argument 8: the grid finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 9: the grid finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c
/-- No host operation before the grid writes argument 10: the grid finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the grid writes argument 11: the grid finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c
/-- No host operation before the grid writes argument 12: the grid finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c
/-- No host operation before the grid writes argument 13: the grid finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c
/-- No host operation before the grid writes argument 14: the grid finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c
/-- No host operation before the grid writes argument 15: the grid finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c
/-- No host operation before the grid writes argument 16: the grid finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg16 (by exact (by decide : ∀ w, Pipeline.arrRef spec0 w ≠ main_arg16))]
  exact V_main_arg16 m c
/-- No host operation before the grid writes argument 17: the grid finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor does the closing reshape: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg17 (by exact (by decide : ∀ w, Pipeline.arrRef spec0 w ≠ main_arg17))]
  exact V_main_arg17 m c

/-! ## The windows' blocks -/

/-- Window `w`'s block at grid point `t`: that rectangle of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the block
    index has not moved since it was fetched. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or the block
    index has not moved since it was fetched. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or the block
    index has not moved since it was fetched. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or the block
    index has not moved since it was fetched. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or the block
    index has not moved since it was fetched. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or the block
    index has not moved since it was fetched. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetches it or the block
    index has not moved since it was fetched. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetches it or the block
    index has not moved since it was fetched. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetches it or the block
    index has not moved since it was fetched. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the point fetches it or the block
    index has not moved since it was fetched. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether the point fetches it or the block
    index has not moved since it was fetched. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether the point fetches it or the block
    index has not moved since it was fetched. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether the point fetches it or the block
    index has not moved since it was fetched. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether the point fetches it or the block
    index has not moved since it was fetched. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether the point fetches it or the block
    index has not moved since it was fetched. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether the point fetches it or the block
    index has not moved since it was fetched. -/
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether the point fetches it or the block
    index has not moved since it was fetched. -/
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, whether the point fetches it or the block
    index has not moved since it was fetched. -/
theorem before_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the grid -/

/-- An argument that is itself an array of the grid (a weight staged as it is) ends at what the grid's run leaves
    of an input, its entry contents; every other argument bypasses the grid and is written by no later line. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 5).trans (((dats 0 c).arrAt_in 5 rfl _).trans ((hA c 5).trans (V_main_arg2 m c))),
      ((h c).2 main_arg3 (Pipeline.mem_restRefs_of main_arg3 (by decide) (by decide))).trans (W_main_arg3 m dats c),
      ((h c).1 7).trans (((dats 0 c).arrAt_in 7 rfl _).trans ((hA c 7).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).1 14).trans (((dats 0 c).arrAt_in 14 rfl _).trans ((hA c 14).trans (V_main_arg8 m c))),
      ((h c).2 main_arg9 (Pipeline.mem_restRefs_of main_arg9 (by decide) (by decide))).trans (W_main_arg9 m dats c),
      ((h c).1 16).trans (((dats 0 c).arrAt_in 16 rfl _).trans ((hA c 16).trans (V_main_arg10 m c))),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c),
      ((h c).2 main_arg15 (Pipeline.mem_restRefs_of main_arg15 (by decide) (by decide))).trans (W_main_arg15 m dats c),
      ((h c).2 main_arg16 (Pipeline.mem_restRefs_of main_arg16 (by decide) (by decide))).trans (W_main_arg16 m dats c),
      ((h c).2 main_arg17 (Pipeline.mem_restRefs_of main_arg17 (by decide) (by decide))).trans (W_main_arg17 m dats c)⟩

/-- The frame claim's post from a run of the grid. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => kept_of_post m dats hA r h c) h

/-! ## The body's accesses: every load and the store take a whole buffer -/

abbrev rS2048x64 : Rect S2048x64 := Rect.unit (s := S2048x64) ![0, 0] S2048x64.size inb_S2048x64_S2048x64_0_0
abbrev rS2048x3 : Rect S2048x3 := Rect.unit (s := S2048x3) ![0, 0] S2048x3.size inb_S2048x3_S2048x3_0_0
abbrev rS64x64 : Rect S64x64 := Rect.unit (s := S64x64) ![0, 0] S64x64.size inb_S64x64_S64x64_0_0
abbrev rS1x64 : Rect S1x64 := Rect.unit (s := S1x64) ![0, 0] S1x64.size inb_S1x64_S1x64_0_0
abbrev rS64x128 : Rect S64x128 := Rect.unit (s := S64x128) ![0, 0] S64x128.size inb_S64x128_S64x128_0_0
abbrev rS1x128 : Rect S1x128 := Rect.unit (s := S1x128) ![0, 0] S1x128.size inb_S1x128_S1x128_0_0
abbrev rS128x64 : Rect S128x64 := Rect.unit (s := S128x64) ![0, 0] S128x64.size inb_S128x64_S128x64_0_0
abbrev rS64x1 : Rect S64x1 := Rect.unit (s := S64x1) ![0, 0] S64x1.size inb_S64x1_S64x1_0_0
abbrev rS1x1 : Rect S1x1 := Rect.unit (s := S1x1) ![0, 0] S1x1.size inb_S1x1_S1x1_0_0
abbrev rS2048x1 : Rect S2048x1 := Rect.unit (s := S2048x1) ![0, 0] S2048x1.size inb_S2048x1_S2048x1_0_0

/-! ## What the body leaves in the output window's buffer -/

/-- The output column of a grid point, from the eighteen input blocks: the body's one store, whose value is the
    score of the block's 2048 rows (the two normalized neighbourhood sums through their linear layer and ReLU, the four
    elementwise products through the three dense layers, plus the rows' bias sum). -/
def colOut (x0 : Vec F S2048x64 .f32) (x1 : Vec F S2048x64 .f32) (x2 : Vec F S2048x64 .f32) (x3 : Vec F S2048x64 .f32) (x4 : Vec F S2048x3 .f32) (x5 : Vec F S64x64 .f32) (x6 : Vec F S1x64 .f32) (x7 : Vec F S64x64 .f32) (x8 : Vec F S1x64 .f32) (x9 : Vec F S64x128 .f32) (x10 : Vec F S64x128 .f32) (x11 : Vec F S64x128 .f32) (x12 : Vec F S64x128 .f32) (x13 : Vec F S1x128 .f32) (x14 : Vec F S128x64 .f32) (x15 : Vec F S1x64 .f32) (x16 : Vec F S64x1 .f32) (x17 : Vec F S1x1 .f32) : Vec F S2048x1 .f32 :=
  View.canon [⟨rS2048x1, k0_pay1 (k0_pay3 (View.ld x4 rS2048x3)) (k0_pay8 (k0_pay4 (View.ld x0 rS2048x64)) (k0_pay5 (View.ld x1 rS2048x64)) (k0_pay6 (View.ld x4 rS2048x3) (View.ld x3 rS2048x64) (View.ld x5 rS64x64) (View.ld x6 rS1x64)) (k0_pay7 (View.ld x4 rS2048x3) (View.ld x2 rS2048x64) (View.ld x7 rS64x64) (View.ld x8 rS1x64)) (View.ld x9 rS64x128) (View.ld x10 rS64x128) (View.ld x11 rS64x128) (View.ld x12 rS64x128) (View.ld x13 rS1x128) (View.ld x14 rS128x64) (View.ld x15 rS1x64)) (View.ld x16 rS64x1) (View.ld x17 rS1x1)⟩]

/-- The one store covers the buffer. -/
theorem cover_col (p0 : Vec F S2048x1 .f32) (y : S2048x1.Idx) :
    ∃ pc ∈ ([⟨rS2048x1, p0⟩] : List (View.Piece (Elt F) S2048x1 .f32)), y ∈ pc.1.set :=
  View.cover_of_tiled [⟨rS2048x1, p0⟩] S2048x1.size (by rfl) y

/-! ## The body's triple -/

set_option maxHeartbeats 4000000 in
/-- On whole staging buffers, the inputs' at contents `xW` and the output's at anything, the body runs to a state with
    the inputs' as they were and the output's at `colOut` of them: it only loads whole buffers, computes, and stores once. -/
theorem sound_kernel (c : Dev nD) (E : Set ℕ) (i : grid0.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x3 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S128x64 .f32) (harg15 : arg15.IsWhole) (arg16 : Memref sig .tc .vmem S1x64 .f32) (harg16 : arg16.IsWhole) (arg17 : Memref sig .tc .vmem S64x1 .f32) (harg17 : arg17.IsWhole) (arg18 : Memref sig .tc .vmem S1x1 .f32) (harg18 : arg18.IsWhole) (arg19 : Memref sig .tc .vmem S2048x1 .f32) (harg19 : arg19.IsWhole)
    (x0 : Vec F S2048x64 .f32) (x1 : Vec F S2048x64 .f32) (x2 : Vec F S2048x64 .f32) (x3 : Vec F S2048x64 .f32) (x4 : Vec F S2048x3 .f32) (x5 : Vec F S64x64 .f32) (x6 : Vec F S1x64 .f32) (x7 : Vec F S64x64 .f32) (x8 : Vec F S1x64 .f32) (x9 : Vec F S64x128 .f32) (x10 : Vec F S64x128 .f32) (x11 : Vec F S64x128 .f32) (x12 : Vec F S64x128 .f32) (x13 : Vec F S1x128 .f32) (x14 : Vec F S128x64 .f32) (x15 : Vec F S1x64 .f32) (x16 : Vec F S64x1 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (colOut x0 x1 x2 x3 x4 x5 x6 x7 x8 x9 x10 x11 x12 x13 x14 x15 x16 x17)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  try dsimp only
  exact View.read_writes_eq_canon _ _ _ (cover_col _)

/-! ## The proof data -/

/-- On core `c`: the arrays as the grid finds them; after the body at point `t` each input's buffer at its block and
    the output's at `colOut` of the input blocks; nothing of the kernel's own to keep, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => colOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = colOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d
theorem before_17 (c : Dev nD) (t : Fin cfg0.N) (d) : (dats m 0 c).before 17 t d = iblk m c 17 t :=
  before_17_of m (dats m 0 c) (A_eq m c 17) (after_17 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- At any point the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the grid ends at what the proof data say (an
    input at its entry contents, the output at the points' columns written back), and every other buffer as the closing
    reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Frame

end
-- ==== Proof.BlocksIdeal.lean ====
/-
  From the blocks to the array, for the idealized program.

  The grid has eight points; point `t` owns rows `2048·t … 2048·t + 2047` of the five row-blocked inputs and of the
  [16384, 1] output, and sees each of the thirteen weight and bias arrays whole.  What point `t` writes back is the
  column `colOut` of its input blocks; the eight columns tile the output, so after the grid entry `(r, 0)` of the output
  holds entry `r mod 2048` of the column of point `r / 2048`.  The closing reshape drops the unit axis.  An input
  block's entry `(p, k)` is the array's entry `(2048·t + p, k)`; a whole window's entry `(a, b)` is the array's.
-/
import proofs.«180399_j50302656971285_2_alg».proof.Proof.FrameIdeal
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The output column is the body's value of the blocks themselves: every load takes its whole buffer and the one store
    covers the output's. -/
theorem colOut_eq (x0 : Vec F S2048x64 .f32) (x1 : Vec F S2048x64 .f32) (x2 : Vec F S2048x64 .f32) (x3 : Vec F S2048x64 .f32) (x4 : Vec F S2048x3 .f32) (x5 : Vec F S64x64 .f32) (x6 : Vec F S1x64 .f32) (x7 : Vec F S64x64 .f32) (x8 : Vec F S1x64 .f32) (x9 : Vec F S64x128 .f32) (x10 : Vec F S64x128 .f32) (x11 : Vec F S64x128 .f32) (x12 : Vec F S64x128 .f32) (x13 : Vec F S1x128 .f32) (x14 : Vec F S128x64 .f32) (x15 : Vec F S1x64 .f32) (x16 : Vec F S64x1 .f32) (x17 : Vec F S1x1 .f32) :
    colOut x0 x1 x2 x3 x4 x5 x6 x7 x8 x9 x10 x11 x12 x13 x14 x15 x16 x17
      = k0_pay1 (k0_pay3 x4) (k0_pay8 (k0_pay4 x0) (k0_pay5 x1) (k0_pay6 x4 x3 x5 x6) (k0_pay7 x4 x2 x7 x8) x9 x10 x11 x12 x13 x14 x15) x16 x17 := by
  unfold colOut
  rw [View.canon_unit_zero hz]
  simp only [View.ld_unit_zero (S := S2048x64) hz, View.ld_unit_zero (S := S2048x3) hz, View.ld_unit_zero (S := S64x64) hz, View.ld_unit_zero (S := S1x64) hz, View.ld_unit_zero (S := S64x128) hz, View.ld_unit_zero (S := S1x128) hz, View.ld_unit_zero (S := S128x64) hz, View.ld_unit_zero (S := S64x1) hz, View.ld_unit_zero (S := S1x1) hz]

/-- The printed index maps over the grid: a row-blocked window's block index is the point's number on the row axis and
    zero on the other; a shared window's is zero on both. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = t.val ∧ win0_18.index t (1 : Fin 2) = 0 :=
  (by decide +kernel : ∀ t : Fin grid0.N, _)

theorem N8 : cfg0.N = 8 := N_0

/-- The grid point that owns row `(i 0)` of the output, -/
def pt (i : S16384x1.Idx) : Fin cfg0.N := ⟨(i 0).val / 2048, by have h : (i 0).val < 16384 := (i 0).isLt; rw [N8]; omega⟩
/-- and the row's place inside that point's block. -/
def rw_ (i : S16384x1.Idx) : Fin 2048 := ⟨(i 0).val % 2048, Nat.mod_lt _ (by decide)⟩

/-- The column point `t` computes from its eighteen input blocks. -/
def colOf (c : Dev nD) (t : Fin cfg0.N) : Vec F S2048x1 .f32 :=
  colOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- It is what the body leaves in the output window's buffer at point `t`. -/
theorem after_col (c : Dev nD) (t : Fin cfg0.N) : (dats m 0 c).after 18 t = colOf m c t := after_18 m c t

/-- Entry `p` of that column. -/
def colAt (c : Dev nD) (t : Fin cfg0.N) (p : Fin 2048) : Elt F .f32 := colOf m c t (ix2 p (0 : Fin 1))

/-- The output array after the grid, as one function: at `(r, 0)` the owner point's column at `r mod 2048`. -/
def outArr (c : Dev nD) : S16384x1.Idx → Elt F .f32 := fun i => colAt m c (pt i) (rw_ i)

attribute [local irreducible] colOf in
/-- What point `t` writes back is its block of `outArr`. -/
theorem flushed_eq (c : Dev nD) (t : Fin cfg0.N) :
    (dats m 0 c).flushed 18 t = ((cfg0.win 18).blk t).view.read (Elt F) (outArr m c) := by
  show (cfg0.win 18).cut (grid0.coords t) ((dats m 0 c).after 18 t) = _
  rw [after_col]
  funext j
  rw [View.read_apply]
  have hj0 : (j 0).val < 2048 := Nat.lt_of_lt_of_le (j 0).isLt ((cfg0.win 18).xsize_le (grid0.coords t) 0)
  have hj1 : (j 1).val < 1 := Nat.lt_of_lt_of_le (j 1).isLt ((cfg0.win 18).xsize_le (grid0.coords t) 1)
  obtain ⟨e0, e1⟩ := idx_18 t
  have hemb : ((((cfg0.win 18).blk t).view.emb j) 0).val = win0_18.index t (0 : Fin 2) * 2048 + 1 * (j 0).val := rfl
  have hemb0 : ((((cfg0.win 18).blk t).view.emb j) 0).val = t.val * 2048 + (j 0).val := by omega
  have hpt : pt (((cfg0.win 18).blk t).view.emb j) = t := Fin.ext (by
    show ((((cfg0.win 18).blk t).view.emb j) 0).val / 2048 = t.val
    rw [hemb0]; omega)
  have hrw : rw_ (((cfg0.win 18).blk t).view.emb j) = ⟨(j 0).val, hj0⟩ := Fin.ext (by
    show ((((cfg0.win 18).blk t).view.emb j) 0).val % 2048 = (j 0).val
    rw [hemb0]; omega)
  unfold outArr
  rw [hpt, hrw]
  unfold colAt
  refine congrArg (colOf m c t) (funext fun a => Fin.ext ?_)
  match a with
  | ⟨0, _⟩ => rfl
  | ⟨1, _⟩ => show (j 1).val = 0; omega

/-- An index of the output array is in point `t`'s block iff its row is one of the block's 2048. -/
theorem mem_blk (t : Fin cfg0.N) (i : S16384x1.Idx) :
    i ∈ ((cfg0.win 18).blk t).view.set ↔ ∀ a : Fin 2, win0_18.index t a * S2048x1.size a ≤ (i a).val ∧ (i a).val < win0_18.index t a * S2048x1.size a + S2048x1.size a := by
  show i ∈ ((View.whole main_v109).slice (win0_18.rect t)).set ↔ _
  rw [View.set_slice_whole, Rect.mem_set_unit]
  exact Iff.rfl

/-- The eight blocks cover the output. -/
theorem cover (i : S16384x1.Idx) : ∃ t : Fin cfg0.N, (cfg0.win 18).flush t = true ∧ i ∈ ((cfg0.win 18).blk t).view.set := by
  refine ⟨pt i, flush0_18 _, ?_⟩
  rw [mem_blk]
  have e0 : win0_18.index (pt i) (0 : Fin 2) = (i 0).val / 2048 := (idx_18 (pt i)).1
  have e1 : win0_18.index (pt i) (1 : Fin 2) = 0 := (idx_18 (pt i)).2
  have hi1 : (i 1).val < 1 := (i 1).isLt
  intro a
  match a with
  | ⟨0, _⟩ => show win0_18.index (pt i) (0 : Fin 2) * 2048 ≤ (i 0).val ∧ (i 0).val < win0_18.index (pt i) (0 : Fin 2) * 2048 + 2048; omega
  | ⟨1, _⟩ => show win0_18.index (pt i) (1 : Fin 2) * 1 ≤ (i 1).val ∧ (i 1).val < win0_18.index (pt i) (1 : Fin 2) * 1 + 1; omega

/-- The output array after the grid. -/
theorem final18 (c : Dev nD) : (dats m 0 c).arrAt 18 cfg0.N = outArr m c :=
  (dats m 0 c).arrAt_eq_of_cover 18 (outArr m c) (fun t _ => flushed_eq m c t) cover

end Cert.KernelIdeal.Blocks

end
-- ==== Proof.LibBlockSum.lean ====
import Mathlib.Algebra.BigOperators.Fin
import Mathlib.Logic.Equiv.Fin.Basic

/-!
# A sum over `Fin (k * n)`, taken block by block

A contraction over `k * n` terms may be computed as `k` partial sums of `n` consecutive terms each, added up in
any order: in a commutative monoid the total does not depend on the grouping. Cut `Fin (k * n)` into `k`
consecutive blocks of length `n`; term `s` of block `b` is the term at position `s + n * b`.

Nothing here needs the terms to be finite: only commutativity and associativity of `+` are used, so the lemmas
hold on the extended reals as they stand.
-/

namespace BlockSum

/-- Position `s` inside block `b`, as a position of the whole range: `s + n * b`. -/
def idx {k n : ℕ} (b : Fin k) (s : Fin n) : Fin (k * n) := finProdFinEquiv (b, s)

/-- The position's value. -/
theorem idx_val {k n : ℕ} (b : Fin k) (s : Fin n) : (idx b s).val = s.val + n * b.val := rfl

/-- The whole sum is the sum over the blocks of each block's own sum. -/
theorem sum_eq_sum_blocks {M : Type*} [AddCommMonoid M] {k n : ℕ} (f : Fin (k * n) → M) :
    ∑ t, f t = ∑ b : Fin k, ∑ s : Fin n, f (idx b s) :=
  calc ∑ t, f t = ∑ p : Fin k × Fin n, f (finProdFinEquiv p) := (Equiv.sum_comp finProdFinEquiv f).symm
    _ = ∑ b : Fin k, ∑ s : Fin n, f (idx b s) := Fintype.sum_prod_type _

/-- Four partial sums added one after the other onto a zero start are their total. -/
theorem acc_four {M : Type*} [AddCommMonoid M] (T : Fin 4 → M) : 0 + T 0 + T 1 + T 2 + T 3 = ∑ b, T b := by
  rw [Fin.sum_univ_four, zero_add]

end BlockSum
-- ==== Proof.Score.lean ====
/-
  One row of the scorer, on the extended reals, as plain functions of the row's data.

  A query row carries two embeddings `u`, `i` (64 numbers each), two neighbourhood sums `ai`, `au` with their
  degrees `du`, `di`, and two biases `ub`, `ib`.  Each neighbourhood sum is divided by its degree, sent through a
  64×64 linear layer with a bias and clipped below at zero (`gcn`).  The four elementwise products of
  {embedding, clipped layer} × {embedding, clipped layer} form 256 features; three dense layers (256→128 with tanh,
  128→64 with tanh, 64→1) give a number, to which the two biases are added.

  The reference joins the four products into one 256-vector and contracts it against the whole 256×128 weight; the
  tiled program contracts each product against its own 64-row slice of the weight and adds the four partial results,
  and it adds the two biases to each other before adding them to the number.  Both differences are regroupings of
  sums: only commutativity and associativity of `+` on the extended reals are used, so no finiteness is needed.
-/
import Idealize.ShloMosaic.PureOps.Ideal
import proofs.«180399_j50302656971285_2_alg».proof.Proof.LibBlockSum

noncomputable section

open scoped BigOperators

namespace Cert.Score

open Idealize.ShloMosaic

/-- The zero the clipping compares against, kept as the float word both programs spell. -/
abbrev zeroF : EReal := Ideal.ofBits .f32 0x00000000#32

/-- A neighbourhood sum `a` of degree `d` through its layer: `max (Σₖ (aₖ / d) · W k c + b c) 0`. -/
def gcn (a : Fin 64 → EReal) (d : EReal) (W : Fin 64 → Fin 64 → EReal) (b : Fin 64 → EReal) (c : Fin 64) : EReal :=
  max ((∑ k : Fin 64, Ideal.div (a k) d * W k c) + b c) zeroF

/-- The four elementwise products, numbered as the reference concatenates them. -/
def prod4 (u i gu gi : Fin 64 → EReal) (b : Fin 4) (s : Fin 64) : EReal :=
  match b with
  | 0 => u s * i s
  | 1 => u s * gi s
  | 2 => gu s * i s
  | 3 => gu s * gi s

/-- The 256 features: feature `s + 64·b` is entry `s` of product `b`. -/
def feat (P : Fin 4 → Fin 64 → EReal) (q : Fin (4 * 64)) : EReal :=
  P (finProdFinEquiv.symm q).1 (finProdFinEquiv.symm q).2

theorem feat_idx (P : Fin 4 → Fin 64 → EReal) (b : Fin 4) (s : Fin 64) : feat P (BlockSum.idx b s) = P b s := by
  unfold feat BlockSum.idx
  rw [Equiv.symm_apply_apply]

/-- The first dense layer as the reference computes it: one contraction over the 256 features. -/
def hidden1R (P : Fin 4 → Fin 64 → EReal) (W1 : Fin (4 * 64) → Fin 128 → EReal) (b1 : Fin 128 → EReal) (j : Fin 128) : EReal :=
  Ideal.tanh ((∑ q : Fin (4 * 64), feat P q * W1 q j) + b1 j)

/-- The first dense layer as the tiled program computes it: four contractions over 64, one per product against its
    own 64×128 slice of the weight, added one after the other. -/
def hidden1K (P : Fin 4 → Fin 64 → EReal) (Wa Wb Wc Wd : Fin 64 → Fin 128 → EReal) (b1 : Fin 128 → EReal) (j : Fin 128) : EReal :=
  Ideal.tanh (((((∑ s : Fin 64, P 0 s * Wa s j) + ∑ s : Fin 64, P 1 s * Wb s j)
      + ∑ s : Fin 64, P 2 s * Wc s j) + ∑ s : Fin 64, P 3 s * Wd s j) + b1 j)

/-- The two arrangements of the first layer agree when the four slices are the weight's four consecutive blocks of
    64 rows: the contraction over 256 is the sum of its four blocks of 64. -/
theorem hidden1K_eq (P : Fin 4 → Fin 64 → EReal) (W1 : Fin (4 * 64) → Fin 128 → EReal) (Wa Wb Wc Wd : Fin 64 → Fin 128 → EReal)
    (ha : ∀ s j, Wa s j = W1 (BlockSum.idx 0 s) j) (hb : ∀ s j, Wb s j = W1 (BlockSum.idx 1 s) j)
    (hc : ∀ s j, Wc s j = W1 (BlockSum.idx 2 s) j) (hd : ∀ s j, Wd s j = W1 (BlockSum.idx 3 s) j)
    (b1 : Fin 128 → EReal) (j : Fin 128) :
    hidden1K P Wa Wb Wc Wd b1 j = hidden1R P W1 b1 j := by
  unfold hidden1K hidden1R
  rw [BlockSum.sum_eq_sum_blocks (fun q : Fin (4 * 64) => feat P q * W1 q j), Fin.sum_univ_four]
  simp only [feat_idx, ha, hb, hc, hd]

/-- The second dense layer. -/
def hidden2 (x1 : Fin 128 → EReal) (W2 : Fin 128 → Fin 64 → EReal) (b2 : Fin 64 → EReal) (k : Fin 64) : EReal :=
  Ideal.tanh ((∑ j : Fin 128, x1 j * W2 j k) + b2 k)

/-- The last layer: one number. -/
def out3 (x2 : Fin 64 → EReal) (W3 : Fin 64 → EReal) (b3 : EReal) : EReal :=
  (∑ k : Fin 64, x2 k * W3 k) + b3

/-- The row's score as the reference computes it. -/
def scoreR (u i ai au : Fin 64 → EReal) (du di ub ib : EReal) (Wu : Fin 64 → Fin 64 → EReal) (bu : Fin 64 → EReal)
    (Wi : Fin 64 → Fin 64 → EReal) (bi : Fin 64 → EReal) (W1 : Fin (4 * 64) → Fin 128 → EReal) (b1 : Fin 128 → EReal)
    (W2 : Fin 128 → Fin 64 → EReal) (b2 : Fin 64 → EReal) (W3 : Fin 64 → EReal) (b3 : EReal) : EReal :=
  (out3 (hidden2 (hidden1R (prod4 u i (gcn au di Wu bu) (gcn ai du Wi bi)) W1 b1) W2 b2) W3 b3 + ub) + ib

/-- The row's score as the tiled program computes it, from the four weight slices and the sum `bs` of the two biases. -/
def scoreK (u i ai au : Fin 64 → EReal) (du di bs : EReal) (Wu : Fin 64 → Fin 64 → EReal) (bu : Fin 64 → EReal)
    (Wi : Fin 64 → Fin 64 → EReal) (bi : Fin 64 → EReal) (Wa Wb Wc Wd : Fin 64 → Fin 128 → EReal) (b1 : Fin 128 → EReal)
    (W2 : Fin 128 → Fin 64 → EReal) (b2 : Fin 64 → EReal) (W3 : Fin 64 → EReal) (b3 : EReal) : EReal :=
  out3 (hidden2 (hidden1K (prod4 u i (gcn au di Wu bu) (gcn ai du Wi bi)) Wa Wb Wc Wd b1) W2 b2) W3 b3 + bs

/-- The two scores are one number. -/
theorem scoreK_eq_scoreR (u i ai au : Fin 64 → EReal) (du di ub ib : EReal) (Wu : Fin 64 → Fin 64 → EReal) (bu : Fin 64 → EReal)
    (Wi : Fin 64 → Fin 64 → EReal) (bi : Fin 64 → EReal) (W1 : Fin (4 * 64) → Fin 128 → EReal)
    (Wa Wb Wc Wd : Fin 64 → Fin 128 → EReal)
    (ha : ∀ s j, Wa s j = W1 (BlockSum.idx 0 s) j) (hb : ∀ s j, Wb s j = W1 (BlockSum.idx 1 s) j)
    (hc : ∀ s j, Wc s j = W1 (BlockSum.idx 2 s) j) (hd : ∀ s j, Wd s j = W1 (BlockSum.idx 3 s) j)
    (b1 : Fin 128 → EReal) (W2 : Fin 128 → Fin 64 → EReal) (b2 : Fin 64 → EReal) (W3 : Fin 64 → EReal) (b3 : EReal) :
    scoreK u i ai au du di (ub + ib) Wu bu Wi bi Wa Wb Wc Wd b1 W2 b2 W3 b3
      = scoreR u i ai au du di ub ib Wu bu Wi bi W1 b1 W2 b2 W3 b3 := by
  unfold scoreK scoreR
  rw [show hidden1K (prod4 u i (gcn au di Wu bu) (gcn ai du Wi bi)) Wa Wb Wc Wd b1
        = hidden1R (prod4 u i (gcn au di Wu bu) (gcn ai du Wi bi)) W1 b1
    from funext (hidden1K_eq _ W1 Wa Wb Wc Wd ha hb hc hd b1), add_assoc]

end Cert.Score

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«180399_j50302656971285_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.BlockRow.lean ====
/-
  The tiled program's stored value, read at one row.

  The body's store writes a `[2048, 1]` column computed from the row blocks of the two embeddings, the two
  neighbourhood sums, the `[2048, 3]` block of (degree of the user side, degree of the item side, sum of the two
  biases) and the weights. Read at row `p`, every operation in it is an operation on row `p` alone:

  * a matrix product into the zero accumulator is, at `(p, q)`, the sum over the contraction index of the left
    operand's row `p` times the right operand's column `q` (a change of float format on the way in is the identity
    on extended reals);
  * a `[1, n]` bias spread over the rows reads its entry `q`; a column of the scalar block spread along a row reads
    the block's entry in row `p`;
  * everything else (product, quotient, sum, maximum against zero, hyperbolic tangent) acts entry by entry.

  So each stretch of the body is stated once, over arbitrary blocks of which only row `p` is asked
  (`∀ k, a (p, k) = ar k`), and equals the corresponding function of `Score` applied to those rows; the row one
  stretch produces is the row the next one asks for, and the stored value at row `p` is `Score.scoreK` of the row's
  data by composing them.
-/
import proofs.«180399_j50302656971285_2_alg».proof.Proof.Gen.KernelIdeal.Skeleton
import proofs.«180399_j50302656971285_2_alg».proof.Proof.Score
import proofs.«180399_j50302656971285_2_alg».proof.Proof.LibPlainDot
import proofs.«180399_j50302656971285_2_alg».proof.Proof.LibRowLayer
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.BlockRow
open Cert.KernelIdeal Cert.KernelIdeal.Gen Idealize.ShloMosaic Idealize.ShloMosaic.ValueIdx

/-! ## The layout operations of the body, read at an index -/

/-- One column of the `[2048, 3]` scalar block, spread along a row of 64: at `(p, k)` it is the block's entry
    `(p, q)`, where `q` is the column cut out. -/
theorem column_spread_apply (o : Nat) (x : FVec Ideal S2048x3 .f32) (hs : S2048x3.Slices ![0, o] S2048x1)
    (hb : S2048x1.Broadcasts S2048x64) (q : Fin 3) (hq : q.val = o) (p : Fin 2048) (k : Fin 64) :
    broadcastTo S2048x64 (extractStridedSlice S2048x1 ![0, o] x hs) hb (ix2 p k) = x (ix2 p q) :=
  (Cert.RowLayer.broadcastTo_a1_ab_apply _ hb p k).trans
    (slice2_axis1_apply o x hs p (0 : Fin 1) q (by rw [hq]; rfl))

/-- A bias row `[1, n]`, viewed in its own shape and spread over the 2048 rows, reads at `(p, c)` the bias's
    entry `c`. -/
theorem bias_spread_apply {n : Nat} (b : FVec Ideal ⟨2, ![1, n]⟩ .f32)
    (hc : (⟨2, ![1, n]⟩ : Shape).ShapeCasts ⟨2, ![1, n]⟩)
    (hb : (⟨2, ![1, n]⟩ : Shape).Broadcasts ⟨2, ![2048, n]⟩) (p : Fin 2048) (c : Fin n) :
    broadcastTo ⟨2, ![2048, n]⟩ (shapeCast ⟨2, ![1, n]⟩ b hc) hb (ix2 p c) = b (ix2 (0 : Fin 1) c) :=
  (broadcastTo_1b_ab_apply _ hb p c).trans (congrFun (shapeCast_self b hc) _)

/-! ## The layers, each over any blocks whose row `p` is known

Every lemma below reads one stretch of the body at one entry of row `p`. Its operands are arbitrary blocks; what
it asks of them is their row `p` (`∀ k, a (p, k) = ar k`), so that the lemmas compose: the row one layer produces is
the row the next one asks for. -/

/-- The clipped layer of one neighbourhood sum at `(p, c)`: the sums `a` divided entry by entry by a block `dv`
    that is constant `d` along row `p`, times the weight (both through a change of float format, the identity here)
    into the zero accumulator, plus the bias row, clipped below at zero — `Score.gcn` of row `p`. -/
theorem clipped_layer_apply (D : DotDims S2048x64 S64x64 S2048x64) (hD : Cert.PlainDot.IsPlain D)
    (a dv : FVec Ideal S2048x64 .f32) (W : FVec Ideal S64x64 .f32) (b : FVec Ideal S1x64 .f32)
    (hlt : FTy.bits .bf16 < FTy.bits .f32) (hc : S1x64.ShapeCasts S1x64) (hb : S1x64.Broadcasts S2048x64)
    (p : Fin 2048) (c : Fin 64) (ar : Fin 64 → EReal) (ha : ∀ k : Fin 64, a (ix2 p k) = ar k)
    (d : EReal) (hd : ∀ k : Fin 64, dv (ix2 p k) = d) :
    maximumf (addf (matmul D none (truncf .bf16 (divf a dv) hlt) (truncf .bf16 W hlt)
          (constant (F := Ideal) S2048x64 .f32 0x00000000#32))
        (broadcastTo S2048x64 (shapeCast S1x64 b hc) hb))
      (broadcast S2048x64 (Scalar.ofBits (F := Ideal) .f32 0x00000000#32)) (ix2 p c)
      = Cert.Score.gcn ar d (fun k c => W (ix2 k c)) (fun c => b (ix2 (0 : Fin 1) c)) c :=
  congrArg (fun t => max t Cert.Score.zeroF)
    (congrArg₂ (· + ·)
      ((Cert.PlainDot.matmul_zero_apply D hD none _ _ p c).trans
        (Finset.sum_congr rfl fun k _ =>
          congrArg₂ (fun s t => Ideal.div s t * W (ix2 k c)) (ha k) (hd k)))
      (bias_spread_apply b hc hb p c))

/-- One of the four feature products against its 64-row slice of the first weight at `(p, j)` (the product and the
    slice through a change of float format, the slice viewed in its own shape, a plain matrix product into the zero
    accumulator): the sum over `s` of `(ar s · br s) · W (s, j)`, for `ar`, `br` the two factors' rows `p`. -/
theorem feature_dot_apply (D : DotDims S2048x64 S64x128 S2048x128) (hD : Cert.PlainDot.IsPlain D)
    (a b : FVec Ideal S2048x64 .f32) (W : FVec Ideal S64x128 .f32)
    (hlt : FTy.bits .bf16 < FTy.bits .f32) (hc : S64x128.ShapeCasts S64x128) (p : Fin 2048) (j : Fin 128)
    (ar br : Fin 64 → EReal) (ha : ∀ s : Fin 64, a (ix2 p s) = ar s) (hb : ∀ s : Fin 64, b (ix2 p s) = br s) :
    matmul D none (truncf .bf16 (mulf a b) hlt) (truncf .bf16 (shapeCast S64x128 W hc) hlt)
        (constant (F := Ideal) S2048x128 .f32 0x00000000#32) (ix2 p j)
      = ∑ s : Fin 64, (ar s * br s) * W (ix2 s j) :=
  (Cert.PlainDot.matmul_zero_apply D hD none _ _ p j).trans
    (Finset.sum_congr rfl fun s _ =>
      congrArg₂ (fun x w => x * w) (congrArg₂ (fun x y => x * y) (ha s) (hb s))
        (congrFun (shapeCast_self W hc) (ix2 s j)))

/-- The first dense layer at `(p, j)`: the four partial products added one after the other, the bias row, the
    hyperbolic tangent — `Score.hidden1K` of the four feature products of row `p`. -/
theorem first_layer_apply (D : DotDims S2048x64 S64x128 S2048x128) (hD : Cert.PlainDot.IsPlain D)
    (u i gu gi : FVec Ideal S2048x64 .f32) (Wa Wb Wc Wd : FVec Ideal S64x128 .f32) (b1 : FVec Ideal S1x128 .f32)
    (hlt : FTy.bits .bf16 < FTy.bits .f32) (hc : S64x128.ShapeCasts S64x128)
    (hc1 : S1x128.ShapeCasts S1x128) (hb1 : S1x128.Broadcasts S2048x128) (p : Fin 2048) (j : Fin 128)
    (ur ir gur gir : Fin 64 → EReal) (hu : ∀ s : Fin 64, u (ix2 p s) = ur s) (hi : ∀ s : Fin 64, i (ix2 p s) = ir s)
    (hgu : ∀ s : Fin 64, gu (ix2 p s) = gur s) (hgi : ∀ s : Fin 64, gi (ix2 p s) = gir s) :
    tanh (addf (addf (addf (addf
        (matmul D none (truncf .bf16 (mulf u i) hlt) (truncf .bf16 (shapeCast S64x128 Wa hc) hlt)
          (constant (F := Ideal) S2048x128 .f32 0x00000000#32))
        (matmul D none (truncf .bf16 (mulf u gi) hlt) (truncf .bf16 (shapeCast S64x128 Wb hc) hlt)
          (constant (F := Ideal) S2048x128 .f32 0x00000000#32)))
        (matmul D none (truncf .bf16 (mulf gu i) hlt) (truncf .bf16 (shapeCast S64x128 Wc hc) hlt)
          (constant (F := Ideal) S2048x128 .f32 0x00000000#32)))
        (matmul D none (truncf .bf16 (mulf gu gi) hlt) (truncf .bf16 (shapeCast S64x128 Wd hc) hlt)
          (constant (F := Ideal) S2048x128 .f32 0x00000000#32)))
        (broadcastTo S2048x128 (shapeCast S1x128 b1 hc1) hb1)) (ix2 p j)
      = Cert.Score.hidden1K (Cert.Score.prod4 ur ir gur gir)
          (fun s j => Wa (ix2 s j)) (fun s j => Wb (ix2 s j)) (fun s j => Wc (ix2 s j)) (fun s j => Wd (ix2 s j))
          (fun j => b1 (ix2 (0 : Fin 1) j)) j :=
  congrArg Ideal.tanh
    (congrArg₂ (· + ·)
      (congrArg₂ (· + ·)
        (congrArg₂ (· + ·)
          (congrArg₂ (· + ·)
            (feature_dot_apply D hD u i Wa hlt hc p j ur ir hu hi)
            (feature_dot_apply D hD u gi Wb hlt hc p j ur gir hu hgi))
          (feature_dot_apply D hD gu i Wc hlt hc p j gur ir hgu hi))
        (feature_dot_apply D hD gu gi Wd hlt hc p j gur gir hgu hgi))
      (bias_spread_apply b1 hc1 hb1 p j))

/-- The second dense layer at `(p, k)`, over any `[2048, 128]` block whose row `p` is `hr`: `Score.hidden2`. -/
theorem second_layer_apply (D : DotDims S2048x128 S128x64 S2048x64) (hD : Cert.PlainDot.IsPlain D)
    (h : FVec Ideal S2048x128 .f32) (W2 : FVec Ideal S128x64 .f32) (b2 : FVec Ideal S1x64 .f32)
    (hlt : FTy.bits .bf16 < FTy.bits .f32) (hc : S1x64.ShapeCasts S1x64) (hb : S1x64.Broadcasts S2048x64)
    (p : Fin 2048) (k : Fin 64) (hr : Fin 128 → EReal) (hh : ∀ j : Fin 128, h (ix2 p j) = hr j) :
    tanh (addf (matmul D none (truncf .bf16 h hlt) (truncf .bf16 W2 hlt)
          (constant (F := Ideal) S2048x64 .f32 0x00000000#32))
        (broadcastTo S2048x64 (shapeCast S1x64 b2 hc) hb)) (ix2 p k)
      = Cert.Score.hidden2 hr (fun j k => W2 (ix2 j k)) (fun k => b2 (ix2 (0 : Fin 1) k)) k :=
  congrArg Ideal.tanh
    (congrArg₂ (· + ·)
      ((Cert.PlainDot.matmul_zero_apply D hD none _ _ p k).trans
        (Finset.sum_congr rfl fun j _ => congrArg (fun t => t * W2 (ix2 j k)) (hh j)))
      (bias_spread_apply b2 hc hb p k))

/-! ## The payloads at an index -/

/-- The embeddings' blocks are passed on as they are (a shape cast to the same shape). -/
theorem pay4_apply (x : Vec Ideal S2048x64 .f32) (p : Fin 2048) (s : Fin 64) :
    k0_pay4 (F := Ideal) x (ix2 p s) = x (ix2 p s) :=
  congrFun (shapeCast_self x _) _

/-- Likewise for the second embedding. -/
theorem pay5_apply (x : Vec Ideal S2048x64 .f32) (p : Fin 2048) (s : Fin 64) :
    k0_pay5 (F := Ideal) x (ix2 p s) = x (ix2 p s) :=
  congrFun (shapeCast_self x _) _

/-- The bias column: column 2 of the scalar block. -/
theorem pay3_apply (x4 : Vec Ideal S2048x3 .f32) (p : Fin 2048) :
    k0_pay3 (F := Ideal) x4 (ix2 p (0 : Fin 1)) = x4 (ix2 p (2 : Fin 3)) := by
  unfold k0_pay3 k0_pay2
  exact (slice2_axis1_apply 2 _ _ p (0 : Fin 1) (2 : Fin 3) rfl).trans (congrFun (shapeCast_self x4 _) _)

/-- The clipped layer whose divisor is column 1 of the scalar block. -/
theorem pay6_apply (x4 : Vec Ideal S2048x3 .f32) (a : Vec Ideal S2048x64 .f32) (W : Vec Ideal S64x64 .f32)
    (b : Vec Ideal S1x64 .f32) (p : Fin 2048) (c : Fin 64) :
    k0_pay6 (F := Ideal) x4 a W b (ix2 p c)
      = Cert.Score.gcn (fun k => a (ix2 p k)) (x4 (ix2 p (1 : Fin 3))) (fun k c => W (ix2 k c))
          (fun c => b (ix2 (0 : Fin 1) c)) c := by
  unfold k0_pay6 k0_pay2
  exact clipped_layer_apply _ ⟨rfl, rfl, rfl, rfl, rfl, rfl⟩ _ _ W b _ _ _ p c _
    (fun k => congrFun (shapeCast_self a _) (ix2 p k)) _
    (fun k => (column_spread_apply 1 _ _ _ (1 : Fin 3) rfl p k).trans (congrFun (shapeCast_self x4 _) _))

/-- The clipped layer whose divisor is column 0 of the scalar block. -/
theorem pay7_apply (x4 : Vec Ideal S2048x3 .f32) (a : Vec Ideal S2048x64 .f32) (W : Vec Ideal S64x64 .f32)
    (b : Vec Ideal S1x64 .f32) (p : Fin 2048) (c : Fin 64) :
    k0_pay7 (F := Ideal) x4 a W b (ix2 p c)
      = Cert.Score.gcn (fun k => a (ix2 p k)) (x4 (ix2 p (0 : Fin 3))) (fun k c => W (ix2 k c))
          (fun c => b (ix2 (0 : Fin 1) c)) c := by
  unfold k0_pay7 k0_pay2
  exact clipped_layer_apply _ ⟨rfl, rfl, rfl, rfl, rfl, rfl⟩ _ _ W b _ _ _ p c _
    (fun k => congrFun (shapeCast_self a _) (ix2 p k)) _
    (fun k => (column_spread_apply 0 _ _ _ (0 : Fin 3) rfl p k).trans (congrFun (shapeCast_self x4 _) _))

/-- The two dense layers with the hyperbolic tangent, over any four blocks whose rows `p` are known. -/
theorem pay8_apply (u i gu gi : FVec Ideal S2048x64 .f32) (Wa Wb Wc Wd : Vec Ideal S64x128 .f32)
    (b1 : Vec Ideal S1x128 .f32) (W2 : Vec Ideal S128x64 .f32) (b2 : Vec Ideal S1x64 .f32) (p : Fin 2048) (k : Fin 64)
    (ur ir gur gir : Fin 64 → EReal) (hu : ∀ s : Fin 64, u (ix2 p s) = ur s) (hi : ∀ s : Fin 64, i (ix2 p s) = ir s)
    (hgu : ∀ s : Fin 64, gu (ix2 p s) = gur s) (hgi : ∀ s : Fin 64, gi (ix2 p s) = gir s) :
    k0_pay8 (F := Ideal) u i gu gi Wa Wb Wc Wd b1 W2 b2 (ix2 p k)
      = Cert.Score.hidden2
          (Cert.Score.hidden1K (Cert.Score.prod4 ur ir gur gir)
            (fun s j => Wa (ix2 s j)) (fun s j => Wb (ix2 s j)) (fun s j => Wc (ix2 s j)) (fun s j => Wd (ix2 s j))
            (fun j => b1 (ix2 (0 : Fin 1) j)))
          (fun j k => W2 (ix2 j k)) (fun k => b2 (ix2 (0 : Fin 1) k)) k := by
  unfold k0_pay8
  exact second_layer_apply _ ⟨rfl, rfl, rfl, rfl, rfl, rfl⟩ _ W2 b2 _ _ _ p k _
    (fun j => first_layer_apply _ ⟨rfl, rfl, rfl, rfl, rfl, rfl⟩ u i gu gi Wa Wb Wc Wd b1 _ _ _ _ p j
      ur ir gur gir hu hi hgu hgi)

/-- The last layer and the bias column, over any `[2048, 64]` block whose row `p` is `hr` and any column whose
    entry `p` is `bs`: `Score.out3` of the row, plus `bs`. -/
theorem pay1_apply (bcol : FVec Ideal S2048x1 .f32) (h : FVec Ideal S2048x64 .f32) (W3 : Vec Ideal S64x1 .f32)
    (b3 : Vec Ideal S1x1 .f32) (p : Fin 2048) (hr : Fin 64 → EReal) (hh : ∀ k : Fin 64, h (ix2 p k) = hr k)
    (bs : EReal) (hbs : bcol (ix2 p (0 : Fin 1)) = bs) :
    k0_pay1 (F := Ideal) bcol h W3 b3 (ix2 p (0 : Fin 1))
      = Cert.Score.out3 hr (fun k => W3 (ix2 k (0 : Fin 1))) (b3 (ix2 (0 : Fin 1) (0 : Fin 1))) + bs := by
  unfold k0_pay1
  exact congrArg₂ (· + ·)
    (congrArg₂ (· + ·)
      ((Cert.PlainDot.matmul_zero_apply _ ⟨rfl, rfl, rfl, rfl, rfl, rfl⟩ none _ _ p (0 : Fin 1)).trans
        (Finset.sum_congr rfl fun k _ => congrArg (fun t => t * W3 (ix2 k (0 : Fin 1))) (hh k)))
      (bias_spread_apply b3 _ _ p (0 : Fin 1)))
    hbs

/-! ## The stored value at row `p` -/

/-- THE BODY'S STORED VALUE, at row `p` of its `[2048, 1]` result, is the score of that row's data. -/
theorem payload_row (x0 x1 x2 x3 : Vec Ideal S2048x64 .f32) (x4 : Vec Ideal S2048x3 .f32)
    (x5 : Vec Ideal S64x64 .f32) (x6 : Vec Ideal S1x64 .f32) (x7 : Vec Ideal S64x64 .f32) (x8 : Vec Ideal S1x64 .f32)
    (x9 x10 x11 x12 : Vec Ideal S64x128 .f32) (x13 : Vec Ideal S1x128 .f32) (x14 : Vec Ideal S128x64 .f32)
    (x15 : Vec Ideal S1x64 .f32) (x16 : Vec Ideal S64x1 .f32) (x17 : Vec Ideal S1x1 .f32) (p : Fin 2048) :
    k0_pay1 (F := Ideal) (k0_pay3 x4) (k0_pay8 (k0_pay4 x0) (k0_pay5 x1) (k0_pay6 x4 x3 x5 x6) (k0_pay7 x4 x2 x7 x8)
        x9 x10 x11 x12 x13 x14 x15) x16 x17 (ix2 p (0 : Fin 1))
      = Cert.Score.scoreK (fun k => x0 (ix2 p k)) (fun k => x1 (ix2 p k)) (fun k => x2 (ix2 p k)) (fun k => x3 (ix2 p k))
          (x4 (ix2 p (0 : Fin 3))) (x4 (ix2 p (1 : Fin 3))) (x4 (ix2 p (2 : Fin 3)))
          (fun k c => x5 (ix2 k c)) (fun c => x6 (ix2 (0 : Fin 1) c)) (fun k c => x7 (ix2 k c)) (fun c => x8 (ix2 (0 : Fin 1) c))
          (fun s j => x9 (ix2 s j)) (fun s j => x10 (ix2 s j)) (fun s j => x11 (ix2 s j)) (fun s j => x12 (ix2 s j))
          (fun j => x13 (ix2 (0 : Fin 1) j)) (fun j k => x14 (ix2 j k)) (fun k => x15 (ix2 (0 : Fin 1) k))
          (fun k => x16 (ix2 k (0 : Fin 1))) (x17 (ix2 (0 : Fin 1) (0 : Fin 1))) :=
  pay1_apply _ _ x16 x17 p _
    (fun k => pay8_apply _ _ _ _ x9 x10 x11 x12 x13 x14 x15 p k _ _ _ _
      (pay4_apply x0 p) (pay5_apply x1 p) (pay6_apply x4 x3 x5 x6 p) (pay7_apply x4 x2 x7 x8 p))
    _ (pay3_apply x4 p)

end Cert.KernelIdeal.BlockRow

end
-- ==== Proof.RowsIdeal.lean ====
/-
  The idealized program's result, row by row.

  The result is the output array with its unit axis dropped; entry `r` is therefore entry `r mod 2048` of the column
  grid point `r / 2048` computes, which is the tiled form of the row score (`Score.scoreK`) of that point's blocks at that
  row; and a block's row is the array's row `r`.  So entry `r` of the result is the tiled row score of row `r` of the five
  row-blocked arrays and of the whole weight arrays, as the grid finds them.
-/
import proofs.«180399_j50302656971285_2_alg».proof.Proof.BlocksIdeal
import proofs.«180399_j50302656971285_2_alg».proof.Proof.BlockRow
import Idealize.ShloMosaic.Lib.Pipeline.FrameSuffix

set_option maxRecDepth 16384

noncomputable section

namespace Cert.KernelIdeal.Rows

open Cert.KernelIdeal Cert.KernelIdeal.Gen Cert.KernelIdeal.Frame Cert.KernelIdeal.Blocks
open Idealize.ShloMosaic Idealize.ShloMosaic.TcCoe Idealize.ShloMosaic.ValueIdx
open Idealize.SL Idealize.SL.Sem
open Idealize.ShloMosaic.Pipeline (Dat)

section AnyFloat
variable {F : FTy → Type} [FloatOps F]
variable (m : (ℓ : Loc nD τ sig) → Buf (Elt F) ℓ)

/-- Entry `(p, k)` of window 0's block at point `t` is the array's entry `(2048·t + p, k)`. -/
theorem iblk_0 (c : Dev nD) (t : Fin cfg0.N) (p : Fin 2048) (k : Fin 64) (r : Fin 16384) (hr : r.val = t.val * 2048 + p.val) :
    (iblk m c 0 t : Vec F S2048x64 .f32) (ix2 p k) = V m c main_v37 (ix2 r k) := by
  show V m c main_v37 (((cfg0.win 0).blk t).view.emb (ix2 p k)) = V m c main_v37 (ix2 r k)
  obtain ⟨e0, e1⟩ := idx_0 t
  refine congrArg _ (funext fun a => Fin.ext ?_)
  match a with
  | ⟨0, _⟩ => show win0_0.index t (0 : Fin 2) * 2048 + 1 * p.val = r.val; omega
  | ⟨1, _⟩ => show win0_0.index t (1 : Fin 2) * 64 + 1 * k.val = k.val; omega
/-- Entry `(p, k)` of window 1's block at point `t` is the array's entry `(2048·t + p, k)`. -/
theorem iblk_1 (c : Dev nD) (t : Fin cfg0.N) (p : Fin 2048) (k : Fin 64) (r : Fin 16384) (hr : r.val = t.val * 2048 + p.val) :
    (iblk m c 1 t : Vec F S2048x64 .f32) (ix2 p k) = V m c main_v44 (ix2 r k) := by
  show V m c main_v44 (((cfg0.win 1).blk t).view.emb (ix2 p k)) = V m c main_v44 (ix2 r k)
  obtain ⟨e0, e1⟩ := idx_1 t
  refine congrArg _ (funext fun a => Fin.ext ?_)
  match a with
  | ⟨0, _⟩ => show win0_1.index t (0 : Fin 2) * 2048 + 1 * p.val = r.val; omega
  | ⟨1, _⟩ => show win0_1.index t (1 : Fin 2) * 64 + 1 * k.val = k.val; omega
/-- Entry `(p, k)` of window 2's block at point `t` is the array's entry `(2048·t + p, k)`. -/
theorem iblk_2 (c : Dev nD) (t : Fin cfg0.N) (p : Fin 2048) (k : Fin 64) (r : Fin 16384) (hr : r.val = t.val * 2048 + p.val) :
    (iblk m c 2 t : Vec F S2048x64 .f32) (ix2 p k) = V m c main_v51 (ix2 r k) := by
  show V m c main_v51 (((cfg0.win 2).blk t).view.emb (ix2 p k)) = V m c main_v51 (ix2 r k)
  obtain ⟨e0, e1⟩ := idx_2 t
  refine congrArg _ (funext fun a => Fin.ext ?_)
  match a with
  | ⟨0, _⟩ => show win0_2.index t (0 : Fin 2) * 2048 + 1 * p.val = r.val; omega
  | ⟨1, _⟩ => show win0_2.index t (1 : Fin 2) * 64 + 1 * k.val = k.val; omega
/-- Entry `(p, k)` of window 3's block at point `t` is the array's entry `(2048·t + p, k)`. -/
theorem iblk_3 (c : Dev nD) (t : Fin cfg0.N) (p : Fin 2048) (k : Fin 64) (r : Fin 16384) (hr : r.val = t.val * 2048 + p.val) :
    (iblk m c 3 t : Vec F S2048x64 .f32) (ix2 p k) = V m c main_v58 (ix2 r k) := by
  show V m c main_v58 (((cfg0.win 3).blk t).view.emb (ix2 p k)) = V m c main_v58 (ix2 r k)
  obtain ⟨e0, e1⟩ := idx_3 t
  refine congrArg _ (funext fun a => Fin.ext ?_)
  match a with
  | ⟨0, _⟩ => show win0_3.index t (0 : Fin 2) * 2048 + 1 * p.val = r.val; omega
  | ⟨1, _⟩ => show win0_3.index t (1 : Fin 2) * 64 + 1 * k.val = k.val; omega
/-- Entry `(p, k)` of window 4's block at point `t` is the array's entry `(2048·t + p, k)`. -/
theorem iblk_4 (c : Dev nD) (t : Fin cfg0.N) (p : Fin 2048) (k : Fin 3) (r : Fin 16384) (hr : r.val = t.val * 2048 + p.val) :
    (iblk m c 4 t : Vec F S2048x3 .f32) (ix2 p k) = V m c main_v99 (ix2 r k) := by
  show V m c main_v99 (((cfg0.win 4).blk t).view.emb (ix2 p k)) = V m c main_v99 (ix2 r k)
  obtain ⟨e0, e1⟩ := idx_4 t
  refine congrArg _ (funext fun a => Fin.ext ?_)
  match a with
  | ⟨0, _⟩ => show win0_4.index t (0 : Fin 2) * 2048 + 1 * p.val = r.val; omega
  | ⟨1, _⟩ => show win0_4.index t (1 : Fin 2) * 3 + 1 * k.val = k.val; omega
/-- Window 5 is its whole array at every point. -/
theorem iblk_5 (c : Dev nD) (t : Fin cfg0.N) (a : Fin 64) (b : Fin 64) :
    (iblk m c 5 t : Vec F S64x64 .f32) (ix2 a b) = V m c main_arg2 (ix2 a b) := by
  show V m c main_arg2 (((cfg0.win 5).blk t).view.emb (ix2 a b)) = V m c main_arg2 (ix2 a b)
  obtain ⟨e0, e1⟩ := idx_5 t
  refine congrArg _ (funext fun x => Fin.ext ?_)
  match x with
  | ⟨0, _⟩ => show win0_5.index t (0 : Fin 2) * 64 + 1 * a.val = a.val; omega
  | ⟨1, _⟩ => show win0_5.index t (1 : Fin 2) * 64 + 1 * b.val = b.val; omega
/-- Window 6 is its whole array at every point. -/
theorem iblk_6 (c : Dev nD) (t : Fin cfg0.N) (a : Fin 1) (b : Fin 64) :
    (iblk m c 6 t : Vec F S1x64 .f32) (ix2 a b) = V m c main_v100 (ix2 a b) := by
  show V m c main_v100 (((cfg0.win 6).blk t).view.emb (ix2 a b)) = V m c main_v100 (ix2 a b)
  obtain ⟨e0, e1⟩ := idx_6 t
  refine congrArg _ (funext fun x => Fin.ext ?_)
  match x with
  | ⟨0, _⟩ => show win0_6.index t (0 : Fin 2) * 1 + 1 * a.val = a.val; omega
  | ⟨1, _⟩ => show win0_6.index t (1 : Fin 2) * 64 + 1 * b.val = b.val; omega
/-- Window 7 is its whole array at every point. -/
theorem iblk_7 (c : Dev nD) (t : Fin cfg0.N) (a : Fin 64) (b : Fin 64) :
    (iblk m c 7 t : Vec F S64x64 .f32) (ix2 a b) = V m c main_arg4 (ix2 a b) := by
  show V m c main_arg4 (((cfg0.win 7).blk t).view.emb (ix2 a b)) = V m c main_arg4 (ix2 a b)
  obtain ⟨e0, e1⟩ := idx_7 t
  refine congrArg _ (funext fun x => Fin.ext ?_)
  match x with
  | ⟨0, _⟩ => show win0_7.index t (0 : Fin 2) * 64 + 1 * a.val = a.val; omega
  | ⟨1, _⟩ => show win0_7.index t (1 : Fin 2) * 64 + 1 * b.val = b.val; omega
/-- Window 8 is its whole array at every point. -/
theorem iblk_8 (c : Dev nD) (t : Fin cfg0.N) (a : Fin 1) (b : Fin 64) :
    (iblk m c 8 t : Vec F S1x64 .f32) (ix2 a b) = V m c main_v101 (ix2 a b) := by
  show V m c main_v101 (((cfg0.win 8).blk t).view.emb (ix2 a b)) = V m c main_v101 (ix2 a b)
  obtain ⟨e0, e1⟩ := idx_8 t
  refine congrArg _ (funext fun x => Fin.ext ?_)
  match x with
  | ⟨0, _⟩ => show win0_8.index t (0 : Fin 2) * 1 + 1 * a.val = a.val; omega
  | ⟨1, _⟩ => show win0_8.index t (1 : Fin 2) * 64 + 1 * b.val = b.val; omega
/-- Window 9 is its whole array at every point. -/
theorem iblk_9 (c : Dev nD) (t : Fin cfg0.N) (a : Fin 64) (b : Fin 128) :
    (iblk m c 9 t : Vec F S64x128 .f32) (ix2 a b) = V m c main_v102 (ix2 a b) := by
  show V m c main_v102 (((cfg0.win 9).blk t).view.emb (ix2 a b)) = V m c main_v102 (ix2 a b)
  obtain ⟨e0, e1⟩ := idx_9 t
  refine congrArg _ (funext fun x => Fin.ext ?_)
  match x with
  | ⟨0, _⟩ => show win0_9.index t (0 : Fin 2) * 64 + 1 * a.val = a.val; omega
  | ⟨1, _⟩ => show win0_9.index t (1 : Fin 2) * 128 + 1 * b.val = b.val; omega
/-- Window 10 is its whole array at every point. -/
theorem iblk_10 (c : Dev nD) (t : Fin cfg0.N) (a : Fin 64) (b : Fin 128) :
    (iblk m c 10 t : Vec F S64x128 .f32) (ix2 a b) = V m c main_v103 (ix2 a b) := by
  show V m c main_v103 (((cfg0.win 10).blk t).view.emb (ix2 a b)) = V m c main_v103 (ix2 a b)
  obtain ⟨e0, e1⟩ := idx_10 t
  refine congrArg _ (funext fun x => Fin.ext ?_)
  match x with
  | ⟨0, _⟩ => show win0_10.index t (0 : Fin 2) * 64 + 1 * a.val = a.val; omega
  | ⟨1, _⟩ => show win0_10.index t (1 : Fin 2) * 128 + 1 * b.val = b.val; omega
/-- Window 11 is its whole array at every point. -/
theorem iblk_11 (c : Dev nD) (t : Fin cfg0.N) (a : Fin 64) (b : Fin 128) :
    (iblk m c 11 t : Vec F S64x128 .f32) (ix2 a b) = V m c main_v104 (ix2 a b) := by
  show V m c main_v104 (((cfg0.win 11).blk t).view.emb (ix2 a b)) = V m c main_v104 (ix2 a b)
  obtain ⟨e0, e1⟩ := idx_11 t
  refine congrArg _ (funext fun x => Fin.ext ?_)
  match x with
  | ⟨0, _⟩ => show win0_11.index t (0 : Fin 2) * 64 + 1 * a.val = a.val; omega
  | ⟨1, _⟩ => show win0_11.index t (1 : Fin 2) * 128 + 1 * b.val = b.val; omega
/-- Window 12 is its whole array at every point. -/
theorem iblk_12 (c : Dev nD) (t : Fin cfg0.N) (a : Fin 64) (b : Fin 128) :
    (iblk m c 12 t : Vec F S64x128 .f32) (ix2 a b) = V m c main_v105 (ix2 a b) := by
  show V m c main_v105 (((cfg0.win 12).blk t).view.emb (ix2 a b)) = V m c main_v105 (ix2 a b)
  obtain ⟨e0, e1⟩ := idx_12 t
  refine congrArg _ (funext fun x => Fin.ext ?_)
  match x with
  | ⟨0, _⟩ => show win0_12.index t (0 : Fin 2) * 64 + 1 * a.val = a.val; omega
  | ⟨1, _⟩ => show win0_12.index t (1 : Fin 2) * 128 + 1 * b.val = b.val; omega
/-- Window 13 is its whole array at every point. -/
theorem iblk_13 (c : Dev nD) (t : Fin cfg0.N) (a : Fin 1) (b : Fin 128) :
    (iblk m c 13 t : Vec F S1x128 .f32) (ix2 a b) = V m c main_v106 (ix2 a b) := by
  show V m c main_v106 (((cfg0.win 13).blk t).view.emb (ix2 a b)) = V m c main_v106 (ix2 a b)
  obtain ⟨e0, e1⟩ := idx_13 t
  refine congrArg _ (funext fun x => Fin.ext ?_)
  match x with
  | ⟨0, _⟩ => show win0_13.index t (0 : Fin 2) * 1 + 1 * a.val = a.val; omega
  | ⟨1, _⟩ => show win0_13.index t (1 : Fin 2) * 128 + 1 * b.val = b.val; omega
/-- Window 14 is its whole array at every point. -/
theorem iblk_14 (c : Dev nD) (t : Fin cfg0.N) (a : Fin 128) (b : Fin 64) :
    (iblk m c 14 t : Vec F S128x64 .f32) (ix2 a b) = V m c main_arg8 (ix2 a b) := by
  show V m c main_arg8 (((cfg0.win 14).blk t).view.emb (ix2 a b)) = V m c main_arg8 (ix2 a b)
  obtain ⟨e0, e1⟩ := idx_14 t
  refine congrArg _ (funext fun x => Fin.ext ?_)
  match x with
  | ⟨0, _⟩ => show win0_14.index t (0 : Fin 2) * 128 + 1 * a.val = a.val; omega
  | ⟨1, _⟩ => show win0_14.index t (1 : Fin 2) * 64 + 1 * b.val = b.val; omega
/-- Window 15 is its whole array at every point. -/
theorem iblk_15 (c : Dev nD) (t : Fin cfg0.N) (a : Fin 1) (b : Fin 64) :
    (iblk m c 15 t : Vec F S1x64 .f32) (ix2 a b) = V m c main_v107 (ix2 a b) := by
  show V m c main_v107 (((cfg0.win 15).blk t).view.emb (ix2 a b)) = V m c main_v107 (ix2 a b)
  obtain ⟨e0, e1⟩ := idx_15 t
  refine congrArg _ (funext fun x => Fin.ext ?_)
  match x with
  | ⟨0, _⟩ => show win0_15.index t (0 : Fin 2) * 1 + 1 * a.val = a.val; omega
  | ⟨1, _⟩ => show win0_15.index t (1 : Fin 2) * 64 + 1 * b.val = b.val; omega
/-- Window 16 is its whole array at every point. -/
theorem iblk_16 (c : Dev nD) (t : Fin cfg0.N) (a : Fin 64) (b : Fin 1) :
    (iblk m c 16 t : Vec F S64x1 .f32) (ix2 a b) = V m c main_arg10 (ix2 a b) := by
  show V m c main_arg10 (((cfg0.win 16).blk t).view.emb (ix2 a b)) = V m c main_arg10 (ix2 a b)
  obtain ⟨e0, e1⟩ := idx_16 t
  refine congrArg _ (funext fun x => Fin.ext ?_)
  match x with
  | ⟨0, _⟩ => show win0_16.index t (0 : Fin 2) * 64 + 1 * a.val = a.val; omega
  | ⟨1, _⟩ => show win0_16.index t (1 : Fin 2) * 1 + 1 * b.val = b.val; omega
/-- Window 17 is its whole array at every point. -/
theorem iblk_17 (c : Dev nD) (t : Fin cfg0.N) (a : Fin 1) (b : Fin 1) :
    (iblk m c 17 t : Vec F S1x1 .f32) (ix2 a b) = V m c main_v108 (ix2 a b) := by
  show V m c main_v108 (((cfg0.win 17).blk t).view.emb (ix2 a b)) = V m c main_v108 (ix2 a b)
  obtain ⟨e0, e1⟩ := idx_17 t
  refine congrArg _ (funext fun x => Fin.ext ?_)
  match x with
  | ⟨0, _⟩ => show win0_17.index t (0 : Fin 2) * 1 + 1 * a.val = a.val; omega
  | ⟨1, _⟩ => show win0_17.index t (1 : Fin 2) * 1 + 1 * b.val = b.val; omega

/-- The closing reshape: the result is the output array with the unit axis dropped. -/
theorem tail_v110 (c : Dev nD) :
    Pipeline.afterTail₀ cfgs (dats m) 0 (V0 m) [hostOps1] c main_v110
      = shapeCast S16384 ((dats m 0 c).arrAt 18 cfg0.N) shapeCasts_S16384x1_S16384 := by
  unfold Pipeline.afterTail₀
  show StableHlo.after hostOps1 _ (Proc.devRef .tc main_v110) = _
  after_results
  exact congrArg (fun y => shapeCast S16384 y shapeCasts_S16384x1_S16384)
    (Pipeline.withArrays_arr spec0 launch0.win.arr_inj c _ _ 18)

/-- Entry `r` of a [16384, 1] column with its unit axis dropped is the column's entry `(r, 0)`. -/
theorem dropUnit_apply {α : Type} (y : S16384x1.Idx → α) (r : Fin 16384) :
    shapeCast S16384 y shapeCasts_S16384x1_S16384 (ix1 r) = y (ix2 r (0 : Fin 1)) :=
  shapeCast_apply y shapeCasts_S16384x1_S16384 (ix1 r) (ix2 r (0 : Fin 1))
    (by rewrite [Shape.rowMajor_val_two, Shape.rowMajor_val_one]; show r.val * 1 + 0 = r.val; omega)

end AnyFloat

variable (m : (ℓ : Loc nD τ sig) → Buf (Elt Ideal) ℓ)

/-- Entry `r` of the result is the tiled row score of row `r` of the arrays the grid finds. -/
theorem kernel_row (c : Dev nD) (r : Fin 16384) :
    Pipeline.afterTail₀ cfgs (dats m) 0 (V0 m) [hostOps1] c main_v110 (ix1 r)
      = Cert.Score.scoreK (fun k => V m c main_v37 (ix2 r k)) (fun k => V m c main_v44 (ix2 r k))
          (fun k => V m c main_v51 (ix2 r k)) (fun k => V m c main_v58 (ix2 r k))
          (V m c main_v99 (ix2 r (0 : Fin 3))) (V m c main_v99 (ix2 r (1 : Fin 3))) (V m c main_v99 (ix2 r (2 : Fin 3)))
          (fun k c' => V m c main_arg2 (ix2 k c')) (fun c' => V m c main_v100 (ix2 (0 : Fin 1) c'))
          (fun k c' => V m c main_arg4 (ix2 k c')) (fun c' => V m c main_v101 (ix2 (0 : Fin 1) c'))
          (fun s j => V m c main_v102 (ix2 s j)) (fun s j => V m c main_v103 (ix2 s j))
          (fun s j => V m c main_v104 (ix2 s j)) (fun s j => V m c main_v105 (ix2 s j))
          (fun j => V m c main_v106 (ix2 (0 : Fin 1) j)) (fun j k => V m c main_arg8 (ix2 j k))
          (fun k => V m c main_v107 (ix2 (0 : Fin 1) k)) (fun k => V m c main_arg10 (ix2 k (0 : Fin 1)))
          (V m c main_v108 (ix2 (0 : Fin 1) (0 : Fin 1))) := by
  have key : ∀ (t : Fin cfg0.N) (p : Fin 2048), r.val = t.val * 2048 + p.val →
      colAt m c t p = Cert.Score.scoreK (fun k => V m c main_v37 (ix2 r k)) (fun k => V m c main_v44 (ix2 r k))
              (fun k => V m c main_v51 (ix2 r k)) (fun k => V m c main_v58 (ix2 r k))
              (V m c main_v99 (ix2 r (0 : Fin 3))) (V m c main_v99 (ix2 r (1 : Fin 3))) (V m c main_v99 (ix2 r (2 : Fin 3)))
              (fun k c' => V m c main_arg2 (ix2 k c')) (fun c' => V m c main_v100 (ix2 (0 : Fin 1) c'))
              (fun k c' => V m c main_arg4 (ix2 k c')) (fun c' => V m c main_v101 (ix2 (0 : Fin 1) c'))
              (fun s j => V m c main_v102 (ix2 s j)) (fun s j => V m c main_v103 (ix2 s j))
              (fun s j => V m c main_v104 (ix2 s j)) (fun s j => V m c main_v105 (ix2 s j))
              (fun j => V m c main_v106 (ix2 (0 : Fin 1) j)) (fun j k => V m c main_arg8 (ix2 j k))
              (fun k => V m c main_v107 (ix2 (0 : Fin 1) k)) (fun k => V m c main_arg10 (ix2 k (0 : Fin 1)))
              (V m c main_v108 (ix2 (0 : Fin 1) (0 : Fin 1))) := by
    intro t p hr
    unfold colAt colOf
    rw [colOut_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
      Cert.KernelIdeal.BlockRow.payload_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p]
    simp only [fun k => iblk_0 m c t p k r hr, fun k => iblk_1 m c t p k r hr, fun k => iblk_2 m c t p k r hr,
      fun k => iblk_3 m c t p k r hr, fun k => iblk_4 m c t p k r hr,
      iblk_5 m c t, iblk_6 m c t, iblk_7 m c t, iblk_8 m c t, iblk_9 m c t, iblk_10 m c t, iblk_11 m c t, iblk_12 m c t, iblk_13 m c t, iblk_14 m c t, iblk_15 m c t, iblk_16 m c t, iblk_17 m c t]
  have hlt : r.val < 16384 := r.isLt
  rw [tail_v110, dropUnit_apply, final18]
  exact key (pt (ix2 r (0 : Fin 1))) (rw_ (ix2 r (0 : Fin 1))) (by
    show r.val = r.val / 2048 * 2048 + r.val % 2048
    omega)

end Cert.KernelIdeal.Rows

end
-- ==== Proof.LibNary3.lean ====
/-
  Two facts about a line of host operations: a three-operand operation read at its result, and a line cut in two.

  An operation whose operands are a literal family of three references writes, at its own result reference, its
  function applied to the three operands' contents — each taken AT ITS OWN REFERENCE, so that a rewriting pass over a
  line of operations can go on to those operands.  (The general statement reads the operands through the family's
  index `k`, under a binder, where no further rewriting reaches.)  The two forms agree because a function on `Fin 3`
  is determined by its three values.
-/
import Idealize.ShloMosaic.Lib.StableHlo.Run

noncomputable section

namespace Cert.Nary3

open Idealize.ShloMosaic Idealize.ShloMosaic.StableHlo Idealize.SL.Sem

variable {τ : Topo} {sig : RefSig} {Val : EltTy → Type} {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result reference kept out of the rewriting index, for use in one simplification pass. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The contents after a line of operations cut in two: run the first part, then the second from what it leaves. -/
theorem after_append (xs ys : List (HloOp τ sig Val)) (V : Valuation τ sig Val) :
    after (xs ++ ys) V = after ys (after xs V) := by
  induction xs generalizing V with
  | nil => rfl
  | cons op xs ih => exact ih (op.result V)

end Cert.Nary3

end
-- ==== Proof.StagesFeat.lean ====
/-
  The four row-blocked feature arrays the grid of the idealized program is handed are the reference's own intermediate
  values of the same arguments: the two embedding tables gathered at the query ids, and the two neighbourhood sums (the
  other table gathered along the edge list, scattered with addition onto zero rows) gathered at the query ids.  The host
  operations before the grid are, line for line, the reference's.
-/
import proofs.«180399_j50302656971285_2_alg».proof.Proof.FrameIdeal
import proofs.«180399_j50302656971285_2_alg».proof.Proof.Gen.ReferenceIdeal.Read
import proofs.«180399_j50302656971285_2_alg».proof.Proof.LibNary3
import proofs.«180399_j50302656971285_2_alg».proof.Proof.LibBlockSum
import Idealize.ShloMosaic.Lib.Pipeline.Value
import Idealize.ShloMosaic.Lib.ValueIdx
import Idealize.ShloMosaic.Lib.StableHlo.Run

set_option maxRecDepth 16384
set_option maxHeartbeats 4000000

noncomputable section

namespace Cert.KernelIdeal.Stages

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ)

/-! ## The four row-blocked feature arrays -/

/-- The user embeddings at the query ids. -/
theorem V_u (c : Dev nD) : V m c main_v37 = Cert.ReferenceIdeal.Read.val_main_v81 (F := Ideal) (m ((c : Thread nD τ).loc main_arg0)) (m ((c : Thread nD τ).loc main_arg14)) := by
  show StableHlo.after hostOps0 (fun b => m (c, b)) (Proc.devRef .tc main_v37) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

/-- The item embeddings at the query ids. -/
theorem V_i (c : Dev nD) : V m c main_v44 = Cert.ReferenceIdeal.Read.val_main_v88 (F := Ideal) (m ((c : Thread nD τ).loc main_arg1)) (m ((c : Thread nD τ).loc main_arg15)) := by
  show StableHlo.after hostOps0 (fun b => m (c, b)) (Proc.devRef .tc main_v44) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

/-- The item-neighbourhood sums at the query users. -/
theorem V_ai (c : Dev nD) : V m c main_v51 = Cert.ReferenceIdeal.Read.val_main_v16 (F := Ideal) (m ((c : Thread nD τ).loc main_arg1)) (m ((c : Thread nD τ).loc main_arg14)) (m ((c : Thread nD τ).loc main_arg16)) (m ((c : Thread nD τ).loc main_arg17)) := by
  show StableHlo.after hostOps0 (fun b => m (c, b)) (Proc.devRef .tc main_v51) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

/-- The user-neighbourhood sums at the query items. -/
theorem V_au (c : Dev nD) : V m c main_v58 = Cert.ReferenceIdeal.Read.val_main_v33 (F := Ideal) (m ((c : Thread nD τ).loc main_arg0)) (m ((c : Thread nD τ).loc main_arg15)) (m ((c : Thread nD τ).loc main_arg16)) (m ((c : Thread nD τ).loc main_arg17)) := by
  show StableHlo.after hostOps0 (fun b => m (c, b)) (Proc.devRef .tc main_v58) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

end Cert.KernelIdeal.Stages

end
-- ==== Proof.StagesWts.lean ====
/-
  The weights the grid of the idealized program is handed: the square weights as they are, each bias vector viewed as a
  one-row matrix, and the first dense layer's 256×128 weight as its four consecutive blocks of 64 rows.
-/
import proofs.«180399_j50302656971285_2_alg».proof.Proof.FrameIdeal
import proofs.«180399_j50302656971285_2_alg».proof.Proof.Gen.ReferenceIdeal.Read
import proofs.«180399_j50302656971285_2_alg».proof.Proof.LibNary3
import proofs.«180399_j50302656971285_2_alg».proof.Proof.LibBlockSum
import Idealize.ShloMosaic.Lib.Pipeline.Value
import Idealize.ShloMosaic.Lib.ValueIdx
import Idealize.ShloMosaic.Lib.StableHlo.Run

set_option maxRecDepth 16384
set_option maxHeartbeats 4000000

noncomputable section

namespace Cert.KernelIdeal.Stages

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ)

/-! ## The weights and biases -/

theorem V_bu (c : Dev nD) : V m c main_v100 = shapeCast S1x64 (m ((c : Thread nD τ).loc main_arg3)) shapeCasts_S64_S1x64 := by
  show StableHlo.after hostOps0 (fun b => m (c, b)) (Proc.devRef .tc main_v100) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl
theorem V_bi (c : Dev nD) : V m c main_v101 = shapeCast S1x64 (m ((c : Thread nD τ).loc main_arg5)) shapeCasts_S64_S1x64 := by
  show StableHlo.after hostOps0 (fun b => m (c, b)) (Proc.devRef .tc main_v101) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl
theorem V_w1a (c : Dev nD) : V m c main_v102 = extractStridedSlice S64x128 ![0, 0] (m ((c : Thread nD τ).loc main_arg6)) slices_S256x128_S64x128_0_0 := by
  show StableHlo.after hostOps0 (fun b => m (c, b)) (Proc.devRef .tc main_v102) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
theorem V_w1b (c : Dev nD) : V m c main_v103 = extractStridedSlice S64x128 ![64, 0] (m ((c : Thread nD τ).loc main_arg6)) slices_S256x128_S64x128_64_0 := by
  show StableHlo.after hostOps0 (fun b => m (c, b)) (Proc.devRef .tc main_v103) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
theorem V_w1c (c : Dev nD) : V m c main_v104 = extractStridedSlice S64x128 ![128, 0] (m ((c : Thread nD τ).loc main_arg6)) slices_S256x128_S64x128_128_0 := by
  show StableHlo.after hostOps0 (fun b => m (c, b)) (Proc.devRef .tc main_v104) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
theorem V_w1d (c : Dev nD) : V m c main_v105 = extractStridedSlice S64x128 ![192, 0] (m ((c : Thread nD τ).loc main_arg6)) slices_S256x128_S64x128_192_0 := by
  show StableHlo.after hostOps0 (fun b => m (c, b)) (Proc.devRef .tc main_v105) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
theorem V_b1 (c : Dev nD) : V m c main_v106 = shapeCast S1x128 (m ((c : Thread nD τ).loc main_arg7)) shapeCasts_S128_S1x128 := by
  show StableHlo.after hostOps0 (fun b => m (c, b)) (Proc.devRef .tc main_v106) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl
theorem V_b2 (c : Dev nD) : V m c main_v107 = shapeCast S1x64 (m ((c : Thread nD τ).loc main_arg9)) shapeCasts_S64_S1x64 := by
  show StableHlo.after hostOps0 (fun b => m (c, b)) (Proc.devRef .tc main_v107) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl
theorem V_b3 (c : Dev nD) : V m c main_v108 = shapeCast S1x1 (m ((c : Thread nD τ).loc main_arg11)) shapeCasts_S1_S1x1 := by
  show StableHlo.after hostOps0 (fun b => m (c, b)) (Proc.devRef .tc main_v108) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

/-! ## Read at an index -/

/-- An `[n]` vector viewed as a one-row matrix reads, at `(0, c)`, the vector's entry `c`. -/
theorem oneRow_apply {α : Type} {n : ℕ} (v : (⟨1, ![n]⟩ : Shape).Idx → α)
    (h : (⟨1, ![n]⟩ : Shape).ShapeCasts ⟨2, ![1, n]⟩) (c : Fin n) :
    shapeCast ⟨2, ![1, n]⟩ v h (ix2 (0 : Fin 1) c) = v (ix1 c) :=
  shapeCast_apply v h _ _ (by
    rw [Shape.rowMajor_val_two, Shape.rowMajor_val_one]
    show c.val = 0 * n + c.val
    omega)

theorem bu_apply (c : Dev nD) (k : Fin 64) : V m c main_v100 (ix2 (0 : Fin 1) k) = (m ((c : Thread nD τ).loc main_arg3)) (ix1 k) := by
  rw [V_bu]; exact oneRow_apply _ _ k
theorem bi_apply (c : Dev nD) (k : Fin 64) : V m c main_v101 (ix2 (0 : Fin 1) k) = (m ((c : Thread nD τ).loc main_arg5)) (ix1 k) := by
  rw [V_bi]; exact oneRow_apply _ _ k
theorem b1_apply (c : Dev nD) (k : Fin 128) : V m c main_v106 (ix2 (0 : Fin 1) k) = (m ((c : Thread nD τ).loc main_arg7)) (ix1 k) := by
  rw [V_b1]; exact oneRow_apply _ _ k
theorem b2_apply (c : Dev nD) (k : Fin 64) : V m c main_v107 (ix2 (0 : Fin 1) k) = (m ((c : Thread nD τ).loc main_arg9)) (ix1 k) := by
  rw [V_b2]; exact oneRow_apply _ _ k
theorem b3_apply (c : Dev nD) : V m c main_v108 (ix2 (0 : Fin 1) (0 : Fin 1)) = (m ((c : Thread nD τ).loc main_arg11)) (ix1 (0 : Fin 1)) := by
  rw [V_b3]; exact oneRow_apply _ _ 0

/-- Slice 0 of the first dense weight: its row `s` is the weight's row `s + 64·0`. -/
theorem w1a_apply (c : Dev nD) (s : Fin 64) (j : Fin 128) :
    V m c main_v102 (ix2 s j) = (m ((c : Thread nD τ).loc main_arg6)) (ix2 (BlockSum.idx (0 : Fin 4) s) j) := by
  rw [V_w1a]
  exact extractStridedSlice_apply ![0, 0] _ slices_S256x128_S64x128_0_0 (ix2 s j) (ix2 (BlockSum.idx (0 : Fin 4) s) j) (fun a => by
    match a with
    | ⟨0, _⟩ => show (BlockSum.idx (0 : Fin 4) s).val = 0 + s.val; rw [BlockSum.idx_val]; omega
    | ⟨1, _⟩ => show j.val = 0 + j.val; omega)
/-- Slice 1 of the first dense weight: its row `s` is the weight's row `s + 64·1`. -/
theorem w1b_apply (c : Dev nD) (s : Fin 64) (j : Fin 128) :
    V m c main_v103 (ix2 s j) = (m ((c : Thread nD τ).loc main_arg6)) (ix2 (BlockSum.idx (1 : Fin 4) s) j) := by
  rw [V_w1b]
  exact extractStridedSlice_apply ![64, 0] _ slices_S256x128_S64x128_64_0 (ix2 s j) (ix2 (BlockSum.idx (1 : Fin 4) s) j) (fun a => by
    match a with
    | ⟨0, _⟩ => show (BlockSum.idx (1 : Fin 4) s).val = 64 + s.val; rw [BlockSum.idx_val]; omega
    | ⟨1, _⟩ => show j.val = 0 + j.val; omega)
/-- Slice 2 of the first dense weight: its row `s` is the weight's row `s + 64·2`. -/
theorem w1c_apply (c : Dev nD) (s : Fin 64) (j : Fin 128) :
    V m c main_v104 (ix2 s j) = (m ((c : Thread nD τ).loc main_arg6)) (ix2 (BlockSum.idx (2 : Fin 4) s) j) := by
  rw [V_w1c]
  exact extractStridedSlice_apply ![128, 0] _ slices_S256x128_S64x128_128_0 (ix2 s j) (ix2 (BlockSum.idx (2 : Fin 4) s) j) (fun a => by
    match a with
    | ⟨0, _⟩ => show (BlockSum.idx (2 : Fin 4) s).val = 128 + s.val; rw [BlockSum.idx_val]; omega
    | ⟨1, _⟩ => show j.val = 0 + j.val; omega)
/-- Slice 3 of the first dense weight: its row `s` is the weight's row `s + 64·3`. -/
theorem w1d_apply (c : Dev nD) (s : Fin 64) (j : Fin 128) :
    V m c main_v105 (ix2 s j) = (m ((c : Thread nD τ).loc main_arg6)) (ix2 (BlockSum.idx (3 : Fin 4) s) j) := by
  rw [V_w1d]
  exact extractStridedSlice_apply ![192, 0] _ slices_S256x128_S64x128_192_0 (ix2 s j) (ix2 (BlockSum.idx (3 : Fin 4) s) j) (fun a => by
    match a with
    | ⟨0, _⟩ => show (BlockSum.idx (3 : Fin 4) s).val = 192 + s.val; rw [BlockSum.idx_val]; omega
    | ⟨1, _⟩ => show j.val = 0 + j.val; omega)

end Cert.KernelIdeal.Stages

end
-- ==== Proof.StagesDeg.lean ====
/-
  The two degree vectors the idealized program computes before its grid: the count of edges at each user (item), with
  one added to every count, gathered at the query ids.  The counts and the id columns are the reference's own values of
  the same arguments; only the order of "add one" and "gather" differs, which `StagesScal` deals with entry by entry.
-/
import proofs.«180399_j50302656971285_2_alg».proof.Proof.FrameIdeal
import proofs.«180399_j50302656971285_2_alg».proof.Proof.Gen.ReferenceIdeal.Read
import proofs.«180399_j50302656971285_2_alg».proof.Proof.LibNary3
import Idealize.ShloMosaic.Lib.Pipeline.Value
import Idealize.ShloMosaic.Lib.ValueIdx
import Idealize.ShloMosaic.Lib.StableHlo.Run

set_option maxRecDepth 16384
set_option maxHeartbeats 4000000

noncomputable section

namespace Cert.KernelIdeal.Stages

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ)

/-- The degree of each query user: one plus the edge count, gathered at the query users. -/
theorem V_du (c : Dev nD) : V m c main_v65
    = (Host.gather gather_S100000_S16384x1_S16384_n_0_n_n_0_1_1
        (addf (F := Ideal) (Cert.ReferenceIdeal.Read.val_main_v37 (F := Ideal) (m ((c : Thread nD τ).loc main_arg16))) (broadcastInDim S100000 ![] bcast_S_S100000 (constant (F := Ideal) S_ .f32 0x3F800000#32)))
        (Cert.ReferenceIdeal.Read.val_main_v43 (F := Ideal) (m ((c : Thread nD τ).loc main_arg14))) : FVec Ideal S16384 .f32) := by
  show StableHlo.after hostOps0 (fun b => m (c, b)) (Proc.devRef .tc main_v65) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

/-- The degree of each query item. -/
theorem V_di (c : Dev nD) : V m c main_v72
    = (Host.gather gather_S50000_S16384x1_S16384_n_0_n_n_0_1_1
        (addf (F := Ideal) (Cert.ReferenceIdeal.Read.val_main_v49 (F := Ideal) (m ((c : Thread nD τ).loc main_arg17))) (broadcastInDim S50000 ![] bcast_S_S50000 (constant (F := Ideal) S_ .f32 0x3F800000#32)))
        (Cert.ReferenceIdeal.Read.val_main_v55 (F := Ideal) (m ((c : Thread nD τ).loc main_arg15))) : FVec Ideal S16384 .f32) := by
  show StableHlo.after hostOps0 (fun b => m (c, b)) (Proc.devRef .tc main_v72) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

end Cert.KernelIdeal.Stages

end
-- ==== Proof.StagesBias.lean ====
/-
  The bias sum the idealized program computes before its grid: the user bias and the item bias, each gathered at the
  query ids (the reference's own two values), added entry by entry.
-/
import proofs.«180399_j50302656971285_2_alg».proof.Proof.FrameIdeal
import proofs.«180399_j50302656971285_2_alg».proof.Proof.Gen.ReferenceIdeal.Read
import proofs.«180399_j50302656971285_2_alg».proof.Proof.LibNary3
import Idealize.ShloMosaic.Lib.Pipeline.Value
import Idealize.ShloMosaic.Lib.ValueIdx
import Idealize.ShloMosaic.Lib.StableHlo.Run

set_option maxRecDepth 16384
set_option maxHeartbeats 4000000

noncomputable section

namespace Cert.KernelIdeal.Stages

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ)

/-- The sum of the two gathered biases. -/
theorem V_bs (c : Dev nD) : V m c main_v95
    = (addf (F := Ideal) (Cert.ReferenceIdeal.Read.val_main_v119 (F := Ideal) (m ((c : Thread nD τ).loc main_arg12)) (m ((c : Thread nD τ).loc main_arg14))) (Cert.ReferenceIdeal.Read.val_main_v131 (F := Ideal) (m ((c : Thread nD τ).loc main_arg13)) (m ((c : Thread nD τ).loc main_arg15)))
        : FVec Ideal S16384 .f32) := by
  show StableHlo.after hostOps0 (fun b => m (c, b)) (Proc.devRef .tc main_v95) = _
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

end Cert.KernelIdeal.Stages

end
-- ==== Proof.StagesScal.lean ====
/-
  The packed per-row scalars the grid of the idealized program is handed, against the reference's values.

  The last thirteen host operations view the three scalar vectors (degree of the user, degree of the item, bias sum) as
  columns and join them into one [16384, 3] array; none of them writes the vectors.  The program adds the one to a degree
  count BEFORE gathering it at the query ids where the reference adds it after; a gather only picks entries, so the two
  agree entry by entry.
-/
import proofs.«180399_j50302656971285_2_alg».proof.Proof.FrameIdeal
import proofs.«180399_j50302656971285_2_alg».proof.Proof.Gen.ReferenceIdeal.Read
import proofs.«180399_j50302656971285_2_alg».proof.Proof.LibNary3
import proofs.«180399_j50302656971285_2_alg».proof.Proof.StagesDeg
import proofs.«180399_j50302656971285_2_alg».proof.Proof.StagesBias
import Idealize.ShloMosaic.Lib.Pipeline.Value
import Idealize.ShloMosaic.Lib.ValueIdx
import Idealize.ShloMosaic.Lib.StableHlo.Run

set_option maxRecDepth 16384
set_option maxHeartbeats 4000000

noncomputable section

namespace Cert.KernelIdeal.Stages

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ)

/-! ## The last thirteen host operations -/

/-- The host line's last thirteen operations: the three scalar vectors viewed as columns, the columns joined, and the
    re-layings of the weights. -/
abbrev lastOps : List (HloOp τ sig (Elt Ideal)) :=
  [ StableHlo.unary main_v65 main_v96 (broadcastInDim S16384x1 ![0] bcast_S16384_S16384x1_0 : (⟨S16384, .f32⟩ : BufTy).Contents (Elt Ideal) → (⟨S16384x1, .f32⟩ : BufTy).Contents (Elt Ideal)),
    StableHlo.unary main_v72 main_v97 (broadcastInDim S16384x1 ![0] bcast_S16384_S16384x1_0 : (⟨S16384, .f32⟩ : BufTy).Contents (Elt Ideal) → (⟨S16384x1, .f32⟩ : BufTy).Contents (Elt Ideal)),
    StableHlo.unary main_v95 main_v98 (broadcastInDim S16384x1 ![0] bcast_S16384_S16384x1_0 : (⟨S16384, .f32⟩ : BufTy).Contents (Elt Ideal) → (⟨S16384x1, .f32⟩ : BufTy).Contents (Elt Ideal)),
    StableHlo.nary ![main_v96, main_v97, main_v98] main_v99 (fun u => concatenate S16384x3 1 [⟨S16384x1, u 0⟩, ⟨S16384x1, u 1⟩, ⟨S16384x1, u 2⟩] concatenates_S16384x1_S16384x1_S16384x1_S16384x3_d1),
    StableHlo.reshape main_arg3 main_v100 rfl shapeCasts_S64_S1x64,
    StableHlo.reshape main_arg5 main_v101 rfl shapeCasts_S64_S1x64,
    StableHlo.unary main_arg6 main_v102 ((extractStridedSlice S64x128 ![0, 0] · slices_S256x128_S64x128_0_0) : (⟨S256x128, .f32⟩ : BufTy).Contents (Elt Ideal) → (⟨S64x128, .f32⟩ : BufTy).Contents (Elt Ideal)),
    StableHlo.unary main_arg6 main_v103 ((extractStridedSlice S64x128 ![64, 0] · slices_S256x128_S64x128_64_0) : (⟨S256x128, .f32⟩ : BufTy).Contents (Elt Ideal) → (⟨S64x128, .f32⟩ : BufTy).Contents (Elt Ideal)),
    StableHlo.unary main_arg6 main_v104 ((extractStridedSlice S64x128 ![128, 0] · slices_S256x128_S64x128_128_0) : (⟨S256x128, .f32⟩ : BufTy).Contents (Elt Ideal) → (⟨S64x128, .f32⟩ : BufTy).Contents (Elt Ideal)),
    StableHlo.unary main_arg6 main_v105 ((extractStridedSlice S64x128 ![192, 0] · slices_S256x128_S64x128_192_0) : (⟨S256x128, .f32⟩ : BufTy).Contents (Elt Ideal) → (⟨S64x128, .f32⟩ : BufTy).Contents (Elt Ideal)),
    StableHlo.reshape main_arg7 main_v106 rfl shapeCasts_S128_S1x128,
    StableHlo.reshape main_arg9 main_v107 rfl shapeCasts_S64_S1x64,
    StableHlo.reshape main_arg11 main_v108 rfl shapeCasts_S1_S1x1 ]

/-- The host line is its first 125 operations followed by those thirteen. -/
theorem hostOps0_split : (hostOps0 : List (HloOp τ sig (Elt Ideal))) = List.take 125 hostOps0 ++ lastOps := by
  have h : List.drop 125 (hostOps0 : List (HloOp τ sig (Elt Ideal))) = lastOps := rfl
  rw [← h]
  exact (List.take_append_drop 125 hostOps0).symm

/-- The buffers' contents before the last thirteen operations. -/
def before13 (c : Dev nD) : Valuation τ sig (Elt Ideal) := StableHlo.after (List.take 125 hostOps0) (fun b => m (c, b))

/-- What the grid finds is what the last thirteen operations leave of that. -/
theorem V_eq_last (c : Dev nD) (b : Ref sig .tc) : V m c b = StableHlo.after lastOps (before13 m c) (Proc.devRef .tc b) := by
  show StableHlo.after hostOps0 (fun b => m (c, b)) (Proc.devRef .tc b) = _
  exact congrFun ((congrArg (fun l => StableHlo.after l (fun b => m (c, b))) hostOps0_split).trans
    (Cert.Nary3.after_append _ _ _)) _

/-- None of the thirteen writes a scalar vector. -/
theorem lastOps_keep_v65 (c : Dev nD) :
    StableHlo.after lastOps (before13 m c) (Proc.devRef .tc main_v65) = before13 m c (Proc.devRef .tc main_v65) :=
  StableHlo.after_of_forall_not_mem (b := Proc.devRef .tc main_v65) _ _ (List.forall_iff_forall_mem.mp (by
    simp only [lastOps, List.Forall, StableHlo.unary_writes, StableHlo.reshape_writes, StableHlo.nary_writes, Finset.mem_singleton]
    repeat' apply And.intro
    all_goals exact StableHlo.devRef_ne_of_ne (by decide)))
theorem lastOps_keep_v72 (c : Dev nD) :
    StableHlo.after lastOps (before13 m c) (Proc.devRef .tc main_v72) = before13 m c (Proc.devRef .tc main_v72) :=
  StableHlo.after_of_forall_not_mem (b := Proc.devRef .tc main_v72) _ _ (List.forall_iff_forall_mem.mp (by
    simp only [lastOps, List.Forall, StableHlo.unary_writes, StableHlo.reshape_writes, StableHlo.nary_writes, Finset.mem_singleton]
    repeat' apply And.intro
    all_goals exact StableHlo.devRef_ne_of_ne (by decide)))
theorem lastOps_keep_v95 (c : Dev nD) :
    StableHlo.after lastOps (before13 m c) (Proc.devRef .tc main_v95) = before13 m c (Proc.devRef .tc main_v95) :=
  StableHlo.after_of_forall_not_mem (b := Proc.devRef .tc main_v95) _ _ (List.forall_iff_forall_mem.mp (by
    simp only [lastOps, List.Forall, StableHlo.unary_writes, StableHlo.reshape_writes, StableHlo.nary_writes, Finset.mem_singleton]
    repeat' apply And.intro
    all_goals exact StableHlo.devRef_ne_of_ne (by decide)))

/-! ## The packed per-row scalars -/

/-- The [16384, 3] array of (degree of the user, degree of the item, bias sum): the three vectors, each viewed as a
    column, joined along axis 1. -/
theorem V_sc (c : Dev nD) : V m c main_v99
    = (concatenate S16384x3 1 [⟨S16384x1, broadcastInDim S16384x1 ![0] bcast_S16384_S16384x1_0 (V m c main_v65)⟩,
         ⟨S16384x1, broadcastInDim S16384x1 ![0] bcast_S16384_S16384x1_0 (V m c main_v72)⟩,
         ⟨S16384x1, broadcastInDim S16384x1 ![0] bcast_S16384_S16384x1_0 (V m c main_v95)⟩]
        concatenates_S16384x1_S16384x1_S16384x1_S16384x3_d1 : FVec Ideal S16384x3 .f32) := by
  rw [V_eq_last m c main_v99, V_eq_last m c main_v65, V_eq_last m c main_v72, V_eq_last m c main_v95,
    lastOps_keep_v65, lastOps_keep_v72, lastOps_keep_v95]
  simp (disch := decide) only [StableHlo.after_cons, StableHlo.after_nil,
      StableHlo.nullary_result', StableHlo.unary_result', StableHlo.binary_result', StableHlo.ternary_result', StableHlo.quaternary_result', StableHlo.reshape_result', Cert.Nary3.nary3_result',
      StableHlo.nullary_result_ne', StableHlo.unary_result_ne', StableHlo.binary_result_ne', StableHlo.ternary_result_ne', StableHlo.quaternary_result_ne', StableHlo.reshape_result_ne',
      StableHlo.nary_result_ne']
  rfl

/-! ## Read at an index -/

/-- A `[16384]` vector viewed as a column reads, at `(r, 0)`, the vector's entry `r`. -/
theorem col_apply {α : Type} (y : S16384.Idx → α) (r : Fin 16384) :
    broadcastInDim S16384x1 ![0] bcast_S16384_S16384x1_0 y (ix2 r (0 : Fin 1)) = y (ix1 r) :=
  broadcastInDim_apply _ bcast_S16384_S16384x1_0 y (ix2 r (0 : Fin 1)) (ix1 r) (fun a => match a with
    | ⟨0, _⟩ => by show r.val = if (16384 : Nat) = 1 then 0 else r.val; rw [if_neg (by decide)])

/-- Three columns joined along axis 1: column `q` of the joined array is the `q`-th operand. -/
theorem join3_0 {α : Type} (x0 x1 x2 : S16384x1.Idx → α) (r : Fin 16384) :
    concatenate S16384x3 1 [⟨S16384x1, x0⟩, ⟨S16384x1, x1⟩, ⟨S16384x1, x2⟩] concatenates_S16384x1_S16384x1_S16384x1_S16384x3_d1
      (ix2 r (0 : Fin 3)) = x0 (ix2 r (0 : Fin 1)) :=
  concatenate_apply_piece (1 : Fin 2) _ _ (ix2 r (0 : Fin 3)) 0 (by show 0 < 3; omega) S16384x1 x0 rfl rfl 0 rfl (ix2 r (0 : Fin 1))
    (fun b hb => by match b with | ⟨0, _⟩ => rfl | ⟨1, _⟩ => exact absurd rfl hb) rfl
theorem join3_1 {α : Type} (x0 x1 x2 : S16384x1.Idx → α) (r : Fin 16384) :
    concatenate S16384x3 1 [⟨S16384x1, x0⟩, ⟨S16384x1, x1⟩, ⟨S16384x1, x2⟩] concatenates_S16384x1_S16384x1_S16384x1_S16384x3_d1
      (ix2 r (1 : Fin 3)) = x1 (ix2 r (0 : Fin 1)) :=
  concatenate_apply_piece (1 : Fin 2) _ _ (ix2 r (1 : Fin 3)) 1 (by show 1 < 3; omega) S16384x1 x1 rfl rfl 1 rfl (ix2 r (0 : Fin 1))
    (fun b hb => by match b with | ⟨0, _⟩ => rfl | ⟨1, _⟩ => exact absurd rfl hb) rfl
theorem join3_2 {α : Type} (x0 x1 x2 : S16384x1.Idx → α) (r : Fin 16384) :
    concatenate S16384x3 1 [⟨S16384x1, x0⟩, ⟨S16384x1, x1⟩, ⟨S16384x1, x2⟩] concatenates_S16384x1_S16384x1_S16384x1_S16384x3_d1
      (ix2 r (2 : Fin 3)) = x2 (ix2 r (0 : Fin 1)) :=
  concatenate_apply_piece (1 : Fin 2) _ _ (ix2 r (2 : Fin 3)) 2 (by show 2 < 3; omega) S16384x1 x2 rfl rfl 2 rfl (ix2 r (0 : Fin 1))
    (fun b hb => by match b with | ⟨0, _⟩ => rfl | ⟨1, _⟩ => exact absurd rfl hb) rfl

/-- A gather only picks entries: gathering `x + (a scalar spread over x's shape)` is gathering `x` and adding the scalar
    spread over the result's shape. -/
theorem gather_add_scalar {s si t : Shape} {w : ℕ} (d : GatherDims s si t) (x : FVec Ideal s .f32) (idx : IVec si w)
    (hs : (⟨0, ![]⟩ : Shape).BroadcastsInDim s ![]) (ht : (⟨0, ![]⟩ : Shape).BroadcastsInDim t ![])
    (y : FVec Ideal ⟨0, ![]⟩ .f32) (j : t.Idx) :
    Host.gather d (addf x (broadcastInDim s ![] hs y)) idx j = addf (Host.gather d x idx) (broadcastInDim t ![] ht y) j := by
  show x (d.operandIdx j idx) + broadcastInDim s ![] hs y (d.operandIdx j idx)
      = x (d.operandIdx j idx) + broadcastInDim t ![] ht y j
  rw [broadcastInDim_apply ![] hs y _ ix0 (fun a => a.elim0), broadcastInDim_apply ![] ht y _ ix0 (fun a => a.elim0)]

/-- Column 0 of the packed scalars is the reference's degree of the query user. -/
theorem sc0 (c : Dev nD) (r : Fin 16384) :
    V m c main_v99 (ix2 r (0 : Fin 3)) = Cert.ReferenceIdeal.Read.val_main_v46 (F := Ideal) (m ((c : Thread nD τ).loc main_arg14)) (m ((c : Thread nD τ).loc main_arg16)) (ix1 r) := by
  rw [V_sc, join3_0, col_apply, V_du]
  exact (gather_add_scalar _ _ _ bcast_S_S100000 bcast_S_S16384 _ (ix1 r)).trans rfl

/-- Column 1 is the reference's degree of the query item. -/
theorem sc1 (c : Dev nD) (r : Fin 16384) :
    V m c main_v99 (ix2 r (1 : Fin 3)) = Cert.ReferenceIdeal.Read.val_main_v58 (F := Ideal) (m ((c : Thread nD τ).loc main_arg15)) (m ((c : Thread nD τ).loc main_arg17)) (ix1 r) := by
  rw [V_sc, join3_1, col_apply, V_di]
  exact (gather_add_scalar _ _ _ bcast_S_S50000 bcast_S_S16384 _ (ix1 r)).trans rfl

/-- Column 2 is the sum of the reference's two gathered biases. -/
theorem sc2 (c : Dev nD) (r : Fin 16384) :
    V m c main_v99 (ix2 r (2 : Fin 3))
      = Cert.ReferenceIdeal.Read.val_main_v119 (F := Ideal) (m ((c : Thread nD τ).loc main_arg12)) (m ((c : Thread nD τ).loc main_arg14)) (ix1 r) + Cert.ReferenceIdeal.Read.val_main_v131 (F := Ideal) (m ((c : Thread nD τ).loc main_arg13)) (m ((c : Thread nD τ).loc main_arg15)) (ix1 r) := by
  rw [V_sc, join3_2, col_apply, V_bs]
  rfl

end Cert.KernelIdeal.Stages

end
-- ==== Proof.RefRow.lean ====
/-
  The reference program read one row at a time, on the extended reals.

  The reference computes all 16384 scores at once, as whole-array operations. Read at one row `r`, each of those
  operations touches only row `r` of its operands (and the weights, which have no row), so the result at `r` is a
  function of that row's data alone. This file proves that the function is `Score.scoreR`.

  The row's data are eight arrays whose rows are looked up, or accumulated and then looked up, by index: the two
  embedding rows, the two neighbourhood sums, the two degrees and the two biases. How they are produced is not
  opened here; they stand on both sides of the statement as the same terms.

  The proof goes bottom up, one lemma per layer, each stated at explicit coordinates `(r, c)`:
  * a vector spread along the rows or along the columns is read at its own coordinate;
  * each of the five matrix products is, entry by entry, the sum over the contraction index;
  * the two clipped neighbourhood layers are `Score.gcn`;
  * the four pairwise products, joined along the columns, are the 256 features `Score.feat (Score.prod4 …)`:
    column `s + 64·b` of the joined array is column `s` of piece `b`;
  * the three dense layers are `Score.hidden1R`, `Score.hidden2`, `Score.out3`;
  * the last two operations add the two biases, one after the other.
  Every arithmetic operation of the program is, on the extended reals, the operation of the same name (`+`, `*`,
  `max`, `Ideal.div`, `Ideal.tanh`), so once the indices are identified each layer closes by congruence.
-/
import proofs.«180399_j50302656971285_2_alg».proof.Proof.Gen.ReferenceIdeal.Read
import proofs.«180399_j50302656971285_2_alg».proof.Proof.Score
import proofs.«180399_j50302656971285_2_alg».proof.Proof.LibPlainDot
import proofs.«180399_j50302656971285_2_alg».proof.Proof.LibRowLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRow

open Cert.ReferenceIdeal Cert.ReferenceIdeal.Read Idealize.ShloMosaic Idealize.ShloMosaic.ValueIdx

section

variable (x0 : (⟨S100000x64, .f32⟩ : BufTy).Contents (Elt Ideal)) (x1 : (⟨S50000x64, .f32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S256x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))
  (x10 : (⟨S64x1, .f32⟩ : BufTy).Contents (Elt Ideal)) (x11 : (⟨S1, .f32⟩ : BufTy).Contents (Elt Ideal))
  (x12 : (⟨S100000x1, .f32⟩ : BufTy).Contents (Elt Ideal)) (x13 : (⟨S50000x1, .f32⟩ : BufTy).Contents (Elt Ideal))
  (x14 x15 : (⟨S16384, .i32⟩ : BufTy).Contents (Elt Ideal)) (x16 x17 : (⟨S2000000, .i32⟩ : BufTy).Contents (Elt Ideal))
  (r : Fin 16384)

/-! ## Broadcasts read at a row and a column

A bias vector is spread along the rows in two steps, `[n] → [1, n] → [16384, n]`; a degree vector is spread along the
columns in two steps, `[16384] → [16384, 1] → [16384, 64]`. Read at `(r, c)` the first is the vector's entry `c`,
the second the vector's entry `r`: each step keeps the coordinate it copies and reads `0` on the unit axis. -/

/-- The user layer's bias spread along the rows, at `(r, c)`: entry `c`. -/
theorem biasU_apply (c : Fin 64) : val_main_v67 (F := Ideal) x3 (ix2 r c) = x3 (ix1 c) := by
  rw [val_main_v67_apply, val_main_v66_apply]
  exact congrArg x3 (funext fun a => Fin.ext (by match a with | ⟨0, _⟩ => rfl))

/-- The item layer's bias spread along the rows, at `(r, c)`: entry `c`. -/
theorem biasI_apply (c : Fin 64) : val_main_v72 (F := Ideal) x5 (ix2 r c) = x5 (ix1 c) := by
  rw [val_main_v72_apply, val_main_v71_apply]
  exact congrArg x5 (funext fun a => Fin.ext (by match a with | ⟨0, _⟩ => rfl))

/-- The first dense layer's bias spread along the rows, at `(r, j)`: entry `j`. -/
theorem bias1_apply (j : Fin 128) : val_main_v96 (F := Ideal) x7 (ix2 r j) = x7 (ix1 j) := by
  rw [val_main_v96_apply, val_main_v95_apply]
  exact congrArg x7 (funext fun a => Fin.ext (by match a with | ⟨0, _⟩ => rfl))

/-- The second dense layer's bias spread along the rows, at `(r, k)`: entry `k`. -/
theorem bias2_apply (k : Fin 64) : val_main_v101 (F := Ideal) x9 (ix2 r k) = x9 (ix1 k) := by
  rw [val_main_v101_apply, val_main_v100_apply]
  exact congrArg x9 (funext fun a => Fin.ext (by match a with | ⟨0, _⟩ => rfl))

/-- The last layer's one bias spread along the rows, at `(r, 0)`: the bias. -/
theorem bias3_apply : val_main_v106 (F := Ideal) x11 (ix2 r (0 : Fin 1)) = x11 (ix1 (0 : Fin 1)) := by
  rw [val_main_v106_apply, val_main_v105_apply]
  exact congrArg x11 (funext fun a => Fin.ext (by match a with | ⟨0, _⟩ => rfl))

/-- The user-side degree spread along the columns, at `(r, c)`: the degree of row `r`. -/
theorem degU_apply (c : Fin 64) :
    val_main_v60 (F := Ideal) x14 x16 (ix2 r c) = val_main_v46 (F := Ideal) x14 x16 (ix1 r) := by
  rw [val_main_v60_apply, val_main_v59_apply]
  exact congrArg _ (funext fun a => Fin.ext (by match a with | ⟨0, _⟩ => rfl))

/-- The item-side degree spread along the columns, at `(r, c)`: the degree of row `r`. -/
theorem degI_apply (c : Fin 64) :
    val_main_v63 (F := Ideal) x15 x17 (ix2 r c) = val_main_v58 (F := Ideal) x15 x17 (ix1 r) := by
  rw [val_main_v63_apply, val_main_v62_apply]
  exact congrArg _ (funext fun a => Fin.ext (by match a with | ⟨0, _⟩ => rfl))

/-- The zero the first clipping compares against, spread over the whole array: the zero word everywhere. -/
theorem zeroU_apply (c : Fin 64) : val_main_call0_v0 (F := Ideal) (ix2 r c) = Cert.Score.zeroF := by
  rw [val_main_call0_v0_apply, val_main_call0_cst_apply]
  rfl

/-- The zero the second clipping compares against: the zero word everywhere. -/
theorem zeroI_apply (c : Fin 64) : val_main_call1_v0 (F := Ideal) (ix2 r c) = Cert.Score.zeroF := by
  rw [val_main_call1_v0_apply, val_main_call1_cst_apply]
  rfl

/-! ## The five matrix products, entry by entry

Each is a plain product (the left operand's columns contracted against the right operand's rows), so entry
`(r, c)` is the sum over the contraction index of the products of row `r` on the left and column `c` on the right. -/

/-- The user layer's product at `(r, c)`. -/
theorem dotU_apply (c : Fin 64) :
    val_main_v65 (F := Ideal) x0 x2 x15 x16 x17 (ix2 r c)
      = ∑ k : Fin 64, val_main_v64 (F := Ideal) x0 x15 x16 x17 (ix2 r k) * x2 (ix2 k c) :=
  Cert.PlainDot.dotGeneral_apply dot_S16384x64_S64x64_S16384x64_1_0_0_1_n_n ⟨rfl, rfl, rfl, rfl, rfl, rfl⟩ none _ _ r c

/-- The item layer's product at `(r, c)`. -/
theorem dotI_apply (c : Fin 64) :
    val_main_v70 (F := Ideal) x1 x4 x14 x16 x17 (ix2 r c)
      = ∑ k : Fin 64, val_main_v61 (F := Ideal) x1 x14 x16 x17 (ix2 r k) * x4 (ix2 k c) :=
  Cert.PlainDot.dotGeneral_apply dot_S16384x64_S64x64_S16384x64_1_0_0_1_n_n ⟨rfl, rfl, rfl, rfl, rfl, rfl⟩ none _ _ r c

/-- The first dense layer's product at `(r, j)`: one contraction over the 256 features. -/
theorem dot1_apply (j : Fin 128) :
    val_main_v94 (F := Ideal) x0 x1 x2 x3 x4 x5 x6 x14 x15 x16 x17 (ix2 r j)
      = ∑ q : Fin 256, val_main_v93 (F := Ideal) x0 x1 x2 x3 x4 x5 x14 x15 x16 x17 (ix2 r q) * x6 (ix2 q j) :=
  Cert.PlainDot.dotGeneral_apply dot_S16384x256_S256x128_S16384x128_1_0_0_1_n_n ⟨rfl, rfl, rfl, rfl, rfl, rfl⟩ none _ _ r j

/-- The second dense layer's product at `(r, k)`. -/
theorem dot2_apply (k : Fin 64) :
    val_main_v99 (F := Ideal) x0 x1 x2 x3 x4 x5 x6 x7 x8 x14 x15 x16 x17 (ix2 r k)
      = ∑ j : Fin 128, val_main_v98 (F := Ideal) x0 x1 x2 x3 x4 x5 x6 x7 x14 x15 x16 x17 (ix2 r j) * x8 (ix2 j k) :=
  Cert.PlainDot.dotGeneral_apply dot_S16384x128_S128x64_S16384x64_1_0_0_1_n_n ⟨rfl, rfl, rfl, rfl, rfl, rfl⟩ none _ _ r k

/-- The last layer's product at `(r, 0)`. -/
theorem dot3_apply :
    val_main_v104 (F := Ideal) x0 x1 x2 x3 x4 x5 x6 x7 x8 x9 x10 x14 x15 x16 x17 (ix2 r (0 : Fin 1))
      = ∑ k : Fin 64, val_main_v103 (F := Ideal) x0 x1 x2 x3 x4 x5 x6 x7 x8 x9 x14 x15 x16 x17 (ix2 r k) * x10 (ix2 k (0 : Fin 1)) :=
  Cert.PlainDot.dotGeneral_apply dot_S16384x64_S64x1_S16384x1_1_0_0_1_n_n ⟨rfl, rfl, rfl, rfl, rfl, rfl⟩ none _ _ r 0

/-! ## The two neighbourhood layers

Each is `max ((A / d) · W + b) 0` with `A` a neighbourhood sum and `d` the other side's degree. Read at `(r, c)`:
the clipping, the bias and the product are read there by the lemmas above, which leaves one sum over `k`; in its
`k`-th term the quotient is read at `(r, k)`, where the spread degree is the degree of row `r`. -/

/-- The clipped user-side layer at `(r, c)`: the user-neighbourhood sum of row `r`, divided by the item-side
    degree, through the 64×64 layer with its bias, clipped below at zero. -/
theorem gcnU_apply (c : Fin 64) :
    val_main_v69 (F := Ideal) x0 x2 x3 x15 x16 x17 (ix2 r c)
      = Cert.Score.gcn (fun k => val_main_v33 (F := Ideal) x0 x15 x16 x17 (ix2 r k)) (val_main_v58 (F := Ideal) x15 x17 (ix1 r))
          (fun k c => x2 (ix2 k c)) (fun c => x3 (ix1 c)) c := by
  rw [val_main_v69_apply, val_main_v68_apply, dotU_apply, biasU_apply, zeroU_apply, Ideal.maximumf_def, Ideal.addf_def]
  unfold Cert.Score.gcn
  refine congrArg (fun t => max (t + x3 (ix1 c)) Cert.Score.zeroF) (Finset.sum_congr rfl fun k _ => ?_)
  rw [val_main_v64_apply, degI_apply, Ideal.hostDivf_def]

/-- The clipped item-side layer at `(r, c)`: the item-neighbourhood sum of row `r`, divided by the user-side
    degree, through its 64×64 layer with its bias, clipped below at zero. -/
theorem gcnI_apply (c : Fin 64) :
    val_main_v74 (F := Ideal) x1 x4 x5 x14 x16 x17 (ix2 r c)
      = Cert.Score.gcn (fun k => val_main_v16 (F := Ideal) x1 x14 x16 x17 (ix2 r k)) (val_main_v46 (F := Ideal) x14 x16 (ix1 r))
          (fun k c => x4 (ix2 k c)) (fun c => x5 (ix1 c)) c := by
  rw [val_main_v74_apply, val_main_v73_apply, dotI_apply, biasI_apply, zeroI_apply, Ideal.maximumf_def, Ideal.addf_def]
  unfold Cert.Score.gcn
  refine congrArg (fun t => max (t + x5 (ix1 c)) Cert.Score.zeroF) (Finset.sum_congr rfl fun k _ => ?_)
  rw [val_main_v61_apply, degU_apply, Ideal.hostDivf_def]

/-! ## The four products, joined into the 256 features

The reference multiplies the two embeddings and the two clipped layers pairwise and joins the four `[16384, 64]`
products along the columns. Column `s + 64·b` of the joined array is column `s` of piece `b`: the pieces before
piece `b` take up `64·b` columns, and the row is untouched. -/

/-- Row `r`'s four products as the specification numbers them. -/
abbrev rowProducts : Fin 4 → Fin 64 → EReal :=
  Cert.Score.prod4 (fun k => val_main_v81 (F := Ideal) x0 x14 (ix2 r k)) (fun k => val_main_v88 (F := Ideal) x1 x15 (ix2 r k))
    (Cert.Score.gcn (fun k => val_main_v33 (F := Ideal) x0 x15 x16 x17 (ix2 r k)) (val_main_v58 (F := Ideal) x15 x17 (ix1 r))
      (fun k c => x2 (ix2 k c)) (fun c => x3 (ix1 c)))
    (Cert.Score.gcn (fun k => val_main_v16 (F := Ideal) x1 x14 x16 x17 (ix2 r k)) (val_main_v46 (F := Ideal) x14 x16 (ix1 r))
      (fun k c => x4 (ix2 k c)) (fun c => x5 (ix1 c)))

/-- Columns `0 … 63` of the joined array are the first piece. -/
theorem piece0_apply (s : Fin 64) :
    val_main_v93 (F := Ideal) x0 x1 x2 x3 x4 x5 x14 x15 x16 x17 (ix2 r (BlockSum.idx (0 : Fin 4) s))
      = val_main_v89 (F := Ideal) x0 x1 x14 x15 (ix2 r s) :=
  concatenate_apply_piece (t := S16384x256) (1 : Fin 2) _ _
    (ix2 r (BlockSum.idx (0 : Fin 4) s)) 0 (by show 0 < 4; decide) S16384x64 _ rfl rfl 0 rfl (ix2 r s)
    (fun t ht => by match t, ht with | ⟨0, _⟩, _ => rfl | ⟨1, _⟩, ht => exact absurd rfl ht)
    (by show 0 + s.val = s.val + 64 * 0; omega)

/-- Columns `64 … 127` are the second piece. -/
theorem piece1_apply (s : Fin 64) :
    val_main_v93 (F := Ideal) x0 x1 x2 x3 x4 x5 x14 x15 x16 x17 (ix2 r (BlockSum.idx (1 : Fin 4) s))
      = val_main_v90 (F := Ideal) x0 x1 x4 x5 x14 x16 x17 (ix2 r s) :=
  concatenate_apply_piece (t := S16384x256) (1 : Fin 2) _ _
    (ix2 r (BlockSum.idx (1 : Fin 4) s)) 1 (by show 1 < 4; decide) S16384x64 _ rfl rfl 64 rfl (ix2 r s)
    (fun t ht => by match t, ht with | ⟨0, _⟩, _ => rfl | ⟨1, _⟩, ht => exact absurd rfl ht)
    (by show 64 + s.val = s.val + 64 * 1; omega)

/-- Columns `128 … 191` are the third piece. -/
theorem piece2_apply (s : Fin 64) :
    val_main_v93 (F := Ideal) x0 x1 x2 x3 x4 x5 x14 x15 x16 x17 (ix2 r (BlockSum.idx (2 : Fin 4) s))
      = val_main_v91 (F := Ideal) x0 x1 x2 x3 x15 x16 x17 (ix2 r s) :=
  concatenate_apply_piece (t := S16384x256) (1 : Fin 2) _ _
    (ix2 r (BlockSum.idx (2 : Fin 4) s)) 2 (by show 2 < 4; decide) S16384x64 _ rfl rfl 128 rfl (ix2 r s)
    (fun t ht => by match t, ht with | ⟨0, _⟩, _ => rfl | ⟨1, _⟩, ht => exact absurd rfl ht)
    (by show 128 + s.val = s.val + 64 * 2; omega)

/-- Columns `192 … 255` are the fourth piece. -/
theorem piece3_apply (s : Fin 64) :
    val_main_v93 (F := Ideal) x0 x1 x2 x3 x4 x5 x14 x15 x16 x17 (ix2 r (BlockSum.idx (3 : Fin 4) s))
      = val_main_v92 (F := Ideal) x0 x1 x2 x3 x4 x5 x14 x15 x16 x17 (ix2 r s) :=
  concatenate_apply_piece (t := S16384x256) (1 : Fin 2) _ _
    (ix2 r (BlockSum.idx (3 : Fin 4) s)) 3 (by show 3 < 4; decide) S16384x64 _ rfl rfl 192 rfl (ix2 r s)
    (fun t ht => by match t, ht with | ⟨0, _⟩, _ => rfl | ⟨1, _⟩, ht => exact absurd rfl ht)
    (by show 192 + s.val = s.val + 64 * 3; omega)

/-- Column `s + 64·b` of the joined array, in row `r`, is entry `s` of the row's product `b`. -/
theorem joined_block_apply (b : Fin 4) (s : Fin 64) :
    val_main_v93 (F := Ideal) x0 x1 x2 x3 x4 x5 x14 x15 x16 x17 (ix2 r (BlockSum.idx b s))
      = rowProducts x0 x1 x2 x3 x4 x5 x14 x15 x16 x17 r b s := by
  match b with
  | 0 => rw [piece0_apply, val_main_v89_apply, Ideal.mulf_def]; rfl
  | 1 => rw [piece1_apply, val_main_v90_apply, gcnI_apply, Ideal.mulf_def]; rfl
  | 2 => rw [piece2_apply, val_main_v91_apply, gcnU_apply, Ideal.mulf_def]; rfl
  | 3 => rw [piece3_apply, val_main_v92_apply, gcnU_apply, gcnI_apply, Ideal.mulf_def]; rfl

/-- The joined array at `(r, q)` is feature `q` of row `r`: every column is `s + 64·b` for one block `b` and one
    position `s` inside it. -/
theorem features_apply (q : Fin 256) :
    val_main_v93 (F := Ideal) x0 x1 x2 x3 x4 x5 x14 x15 x16 x17 (ix2 r q)
      = Cert.Score.feat (rowProducts x0 x1 x2 x3 x4 x5 x14 x15 x16 x17 r) q := by
  obtain ⟨⟨b, s⟩, rfl⟩ := (finProdFinEquiv (m := 4) (n := 64)).surjective q
  exact (joined_block_apply x0 x1 x2 x3 x4 x5 x14 x15 x16 x17 r b s).trans (Cert.Score.feat_idx _ b s).symm

/-! ## The three dense layers

Each layer is read at one entry by the same three steps: the outer function and the bias addition are pointwise, the
bias is the spread vector's entry, and the product is a sum over the contraction index, whose terms are the previous
layer read at `(r, ·)`. -/

/-- The first dense layer at `(r, j)`: one contraction over the row's 256 features, a bias, `tanh`. -/
theorem hidden1_apply (j : Fin 128) :
    val_main_v98 (F := Ideal) x0 x1 x2 x3 x4 x5 x6 x7 x14 x15 x16 x17 (ix2 r j)
      = Cert.Score.hidden1R (rowProducts x0 x1 x2 x3 x4 x5 x14 x15 x16 x17 r) (fun q j => x6 (ix2 q j)) (fun j => x7 (ix1 j)) j := by
  rw [val_main_v98_apply, val_main_v97_apply, dot1_apply, bias1_apply, Ideal.hostUnary_tanh_def, Ideal.addf_def]
  unfold Cert.Score.hidden1R
  refine congrArg (fun t => Ideal.tanh (t + x7 (ix1 j))) (Finset.sum_congr rfl fun q _ => ?_)
  rw [features_apply]

/-- The second dense layer at `(r, k)`. -/
theorem hidden2_apply (k : Fin 64) :
    val_main_v103 (F := Ideal) x0 x1 x2 x3 x4 x5 x6 x7 x8 x9 x14 x15 x16 x17 (ix2 r k)
      = Cert.Score.hidden2 (Cert.Score.hidden1R (rowProducts x0 x1 x2 x3 x4 x5 x14 x15 x16 x17 r) (fun q j => x6 (ix2 q j)) (fun j => x7 (ix1 j)))
          (fun j k => x8 (ix2 j k)) (fun k => x9 (ix1 k)) k := by
  rw [val_main_v103_apply, val_main_v102_apply, dot2_apply, bias2_apply, Ideal.hostUnary_tanh_def, Ideal.addf_def]
  unfold Cert.Score.hidden2
  refine congrArg (fun t => Ideal.tanh (t + x9 (ix1 k))) (Finset.sum_congr rfl fun j _ => ?_)
  rw [hidden1_apply]

/-- The `[16384, 1]` column viewed as a `[16384]` vector reads, at `r`, the column's row `r`: position `r` in
    row-major order on both sides (`r / 1 = r`). -/
theorem column_as_vector_apply :
    val_main_v108 (F := Ideal) x0 x1 x2 x3 x4 x5 x6 x7 x8 x9 x10 x11 x14 x15 x16 x17 (ix1 r)
      = val_main_v107 (F := Ideal) x0 x1 x2 x3 x4 x5 x6 x7 x8 x9 x10 x11 x14 x15 x16 x17 (ix2 r (0 : Fin 1)) := by
  rw [val_main_v108_apply]
  exact congrArg _ (funext fun a => Fin.ext (by
    match a with
    | ⟨0, _⟩ => exact Nat.div_one _
    | ⟨1, _⟩ => rfl))

/-- The last layer, as a vector, at `r`: one contraction over the 64 numbers of the second layer, and the bias. -/
theorem out3_apply :
    val_main_v108 (F := Ideal) x0 x1 x2 x3 x4 x5 x6 x7 x8 x9 x10 x11 x14 x15 x16 x17 (ix1 r)
      = Cert.Score.out3 (Cert.Score.hidden2 (Cert.Score.hidden1R (rowProducts x0 x1 x2 x3 x4 x5 x14 x15 x16 x17 r) (fun q j => x6 (ix2 q j)) (fun j => x7 (ix1 j)))
          (fun j k => x8 (ix2 j k)) (fun k => x9 (ix1 k))) (fun k => x10 (ix2 k (0 : Fin 1))) (x11 (ix1 (0 : Fin 1))) := by
  rw [column_as_vector_apply, val_main_v107_apply, dot3_apply, bias3_apply, Ideal.addf_def]
  unfold Cert.Score.out3
  refine congrArg (fun t => t + x11 (ix1 (0 : Fin 1))) (Finset.sum_congr rfl fun k _ => ?_)
  rw [hidden2_apply]

end

/-! ## The row's score -/

/-- **The reference's result at row `r` is the specification's score of that row's data**: the two looked-up
    embeddings, the two neighbourhood sums with their degrees, the two looked-up biases, and the weights. The last
    two operations add the user's bias and then the item's bias to the last layer's number, in that order, which is
    how the specification groups them. -/
theorem ref_row
    (x0 : (⟨S100000x64, .f32⟩ : BufTy).Contents (Elt Ideal)) (x1 : (⟨S50000x64, .f32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S256x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 : (⟨S64x1, .f32⟩ : BufTy).Contents (Elt Ideal)) (x11 : (⟨S1, .f32⟩ : BufTy).Contents (Elt Ideal))
    (x12 : (⟨S100000x1, .f32⟩ : BufTy).Contents (Elt Ideal)) (x13 : (⟨S50000x1, .f32⟩ : BufTy).Contents (Elt Ideal))
    (x14 x15 : (⟨S16384, .i32⟩ : BufTy).Contents (Elt Ideal)) (x16 x17 : (⟨S2000000, .i32⟩ : BufTy).Contents (Elt Ideal))
    (r : Fin 16384) :
    val_main_v132 (F := Ideal) x0 x1 x2 x3 x4 x5 x6 x7 x8 x9 x10 x11 x12 x13 x14 x15 x16 x17 (ix1 r)
      = Cert.Score.scoreR (fun k => val_main_v81 (F := Ideal) x0 x14 (ix2 r k)) (fun k => val_main_v88 (F := Ideal) x1 x15 (ix2 r k))
          (fun k => val_main_v16 (F := Ideal) x1 x14 x16 x17 (ix2 r k)) (fun k => val_main_v33 (F := Ideal) x0 x15 x16 x17 (ix2 r k))
          (val_main_v46 (F := Ideal) x14 x16 (ix1 r)) (val_main_v58 (F := Ideal) x15 x17 (ix1 r))
          (val_main_v119 (F := Ideal) x12 x14 (ix1 r)) (val_main_v131 (F := Ideal) x13 x15 (ix1 r))
          (fun k c => x2 (ix2 k c)) (fun c => x3 (ix1 c)) (fun k c => x4 (ix2 k c)) (fun c => x5 (ix1 c))
          (fun q j => x6 (ix2 q j)) (fun j => x7 (ix1 j)) (fun j k => x8 (ix2 j k)) (fun k => x9 (ix1 k))
          (fun k => x10 (ix2 k (0 : Fin 1))) (x11 (ix1 (0 : Fin 1))) := by
  rw [val_main_v132_apply, val_main_v120_apply, out3_apply, Ideal.addf_def, Ideal.addf_def]
  rfl

end Cert.ReferenceIdeal.RefRow

end
-- ==== Proof.Bridge.lean ====
/-
  The two idealized programs compute the same scores.

  Entry `r` of the tiled program's result is the tiled form of the row score of row `r` of the arrays its grid finds;
  those arrays are the reference's intermediate values of the same arguments; entry `r` of the reference's result is the
  reference form of the row score of the same data; and the two forms of the row score are one number (the
  contraction over 256 features is the sum of its four blocks of 64, and `x + (a + b) = (x + a) + b`).  No step uses
  that an input is finite, so the precondition is not opened.
-/
import proofs.«180399_j50302656971285_2_alg».proof.Defs
import proofs.«180399_j50302656971285_2_alg».proof.Proof.Gen.KernelIdeal
import proofs.«180399_j50302656971285_2_alg».proof.Proof.Gen.ReferenceIdeal
import proofs.«180399_j50302656971285_2_alg».proof.Proof.Gen.Pre_finite_inputs
import proofs.«180399_j50302656971285_2_alg».proof.Proof.RowsIdeal
import proofs.«180399_j50302656971285_2_alg».proof.Proof.StagesFeat
import proofs.«180399_j50302656971285_2_alg».proof.Proof.StagesWts
import proofs.«180399_j50302656971285_2_alg».proof.Proof.StagesScal
import proofs.«180399_j50302656971285_2_alg».proof.Proof.RefRow
import proofs.«180399_j50302656971285_2_alg».proof.Proof.Score
import proofs.«180399_j50302656971285_2_alg».proof.Proof.Gen.ReferenceIdeal.Run
import proofs.«180399_j50302656971285_2_alg».proof.Proof.Gen.ReferenceIdeal.Read

set_option maxRecDepth 16384
set_option maxHeartbeats 4000000

noncomputable section

namespace Cert.Proof.Bridge

open Idealize.ShloMosaic Idealize.ShloMosaic.TcCoe Idealize.ShloMosaic.ValueIdx
open Idealize.SL Idealize.SL.Sem

section Kernel
open Cert.KernelIdeal Cert.KernelIdeal.Gen Cert.KernelIdeal.Frame Cert.KernelIdeal.Stages

variable (m : (ℓ : Loc nD τ sig) → Buf (Elt Ideal) ℓ)

/-- Entry `r` of the tiled program's result is entry `r` of the reference's result term at the same arguments. -/
theorem result_row (c : Dev nD) (r : Fin 16384) :
    Pipeline.afterTail₀ cfgs (dats m) 0 (V0 m) [hostOps1] c main_v110 (ix1 r)
      = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix1 r) := by
  rw [Cert.KernelIdeal.Rows.kernel_row m c r,
    Cert.ReferenceIdeal.RefRow.ref_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) r]
  simp only [V_u m c, V_i m c, V_ai m c, V_au m c, sc0 m c, sc1 m c, sc2 m c,
    V_main_arg2 m c, V_main_arg4 m c, V_main_arg8 m c, V_main_arg10 m c,
    bu_apply m c, bi_apply m c, b1_apply m c, b2_apply m c, b3_apply m c,
    w1a_apply m c, w1b_apply m c, w1c_apply m c, w1d_apply m c]
  exact Cert.Score.scoreK_eq_scoreR _ _ _ _ _ _ _ _ _ _ _ _ (fun q j => (m ((c : Thread nD τ).loc main_arg6)) (ix2 q j)) _ _ _ _
    (fun _ _ => rfl) (fun _ _ => rfl) (fun _ _ => rfl) (fun _ _ => rfl) _ _ _ _ _

/-- The whole result. -/
theorem result_eq (c : Dev nD) :
    Pipeline.afterTail₀ cfgs (dats m) 0 (V0 m) [hostOps1] c main_v110
      = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  funext fun i => by
    obtain ⟨r, rfl⟩ : ∃ r : Fin 16384, i = ix1 r := ⟨i 0, eq_ix1 i⟩
    exact result_row m c r

end Kernel

/-- Run from memories that agree on the arguments, both idealized programs end, with equal results and unchanged
    arguments. -/
theorem algebraic : Cert.algebraic_KernelIdeal_ReferenceIdeal := by
  intro m ρ m' ρ' _ hagree
  refine ⟨Cert.ReferenceIdeal.Value.res_main_v132 (F := Ideal) m', ?_, ?_⟩
  · refine (θ_run Cert.KernelIdeal.defs _ _).mono (fun r h c => ⟨?_, Cert.KernelIdeal.Frame.kept_of_post m (Cert.KernelIdeal.Frame.dats m) (Cert.KernelIdeal.Frame.A_eq m) r h c⟩)
      (Cert.KernelIdeal.Frame.run_main m ρ)
    refine ((h c).2 Cert.KernelIdeal.main_v110 (Pipeline.mem_restRefs_of Cert.KernelIdeal.main_v110 (by decide) (by decide))).trans ?_
    rw [result_eq m c, Cert.ReferenceIdeal.Read.val_main_v132_eq m' c]
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
  · exact Cert.ReferenceIdeal.Value.run (F := Ideal) m' ρ'

end Cert.Proof.Bridge

end
-- ==== Proof.lean ====
/-
  Scoring 16384 (user, item) pairs: a tiled program against its array-at-a-time reference.

  Both programs aggregate, over two million (user, item) edges, the item embeddings around each user and the user
  embeddings around each item, count the two degrees, pick the rows of the 16384 queried pairs, send each normalized
  neighbourhood sum through a 64×64 layer clipped at zero, form the four elementwise products of
  {embedding, clipped layer} × {embedding, clipped layer}, and push their 256 numbers through three dense layers to one
  score per pair, to which the pair's two biases are added.  The tiled program does the dense part on a grid of eight
  points, 2048 pairs each, and splits the first dense layer's contraction over 256 into four over 64.

  * The three frames.  Each program runs to its end, faults nowhere and leaves its eighteen arguments unchanged: for the
    tiled program (word level and idealized alike, one text) by running the grid point by point — every point loads its
    eighteen input blocks whole and stores one output column —, for the reference by running its line of host operations.
  * The idealization changed no operation, so there is nothing to preserve.
  * At exact arithmetic the two results are equal entry by entry: entry `r` is on both sides the row score of pair `r`,
    once as four partial contractions and a pre-added bias sum, once as one contraction and two additions
    (`Score.scoreK_eq_scoreR`); the arrays the grid is handed are the reference's own intermediate values.
-/
import proofs.«180399_j50302656971285_2_alg».proof.Defs
import proofs.«180399_j50302656971285_2_alg».proof.Proof.Gen.Kernel
import proofs.«180399_j50302656971285_2_alg».proof.Proof.Gen.KernelIdeal
import proofs.«180399_j50302656971285_2_alg».proof.Proof.Gen.ReferenceIdeal
import proofs.«180399_j50302656971285_2_alg».proof.Proof.Gen.Pre_finite_inputs
import proofs.«180399_j50302656971285_2_alg».proof.Proof.Gen.ReferenceIdeal.Run
import proofs.«180399_j50302656971285_2_alg».proof.Proof.Gen.ReferenceIdeal.Read
import proofs.«180399_j50302656971285_2_alg».proof.Proof.FrameBits
import proofs.«180399_j50302656971285_2_alg».proof.Proof.FrameIdeal
import proofs.«180399_j50302656971285_2_alg».proof.Proof.Bridge
import Idealize.ShloMosaic.Adequacy
import Idealize.ShloMosaic.Init

noncomputable section

namespace Cert.Proof

open Idealize.ShloMosaic Idealize.SL.Sem

/-- The word-level tiled program's frame. -/
theorem frame_k : Cert.frame_Kernel := fun m ρ _ => Cert.Kernel.Frame.frame m ρ
/-- The idealized tiled program's frame. -/
theorem frame_ki : Cert.frame_KernelIdeal := fun m ρ _ => Cert.KernelIdeal.Frame.frame m ρ
/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Bridge.algebraic⟩

end Cert.Proof

end
